-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x2048 : Shape := ⟨2, ![4096, 2048]⟩
abbrev S4x1024 : Shape := ⟨2, ![4, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4x1024 .f32) (main_arg5 : FVec F S4x1024 .f32) (main_arg6 : FVec F S1024 .f32) (main_arg7 : FVec F S1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S8192x1024 .f32) (main_arg3 : FVec F S4096x2048 .f32) (main_arg4 : FVec F S4x1024 .f32) (main_arg5 : FVec F S4x1024 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_v13 main_v16
-- ==== Kernel.lean ====
abbrev S8192x1024 : Shape := ⟨2, ![8192, 1024]⟩
abbrev S4096x2048 : Shape := ⟨2, ![4096, 2048]⟩
abbrev S4x1024 : Shape := ⟨2, ![4, 1024]⟩
abbrev S1024 : Shape := ⟨1, ![1024]⟩
abbrev S1x1024 : Shape := ⟨2, ![1, 1024]⟩
abbrev S256x1024 : Shape := ⟨2, ![256, 1024]⟩
abbrev S4096x1024 : Shape := ⟨2, ![4096, 1024]⟩
abbrev S256x4096 : Shape := ⟨2, ![256, 4096]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x2048, .f32⟩
  | .hbm, ⟨4, _⟩ => ⟨S4x1024, .f32⟩
  | .hbm, ⟨5, _⟩ => ⟨S4x1024, .f32⟩
  | .hbm, ⟨6, _⟩ => ⟨S1024, .f32⟩
  | .hbm, ⟨7, _⟩ => ⟨S1024, .f32⟩
  | .hbm, ⟨8, _⟩ => ⟨S4096x2048, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S4x1024, .f32⟩
  | .local _ .vmem, ⟨8, _⟩ => ⟨S4x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  slices_S4096x2048_o0_0_S4096x1024 : S4096x2048.Slices ![0, 0] S4096x1024
  slices_S4096x2048_o0_1024_S4096x1024 : S4096x2048.Slices ![0, 1024] S4096x1024
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S4x1024_S4x1024_0_0 : ∀ a, (![0, 0] : Fin 2 → Nat) a + S4x1024.size a ≤ S4x1024.size a
  h_S4x1024 : 0 < S4x1024.numel
  slices_S4x1024_o0_0_S1x1024 : S4x1024.Slices ![0, 0] S1x1024
  shapeCasts_S1x1024_S1024 : S1x1024.ShapeCasts S1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x2048 : Shape := ⟨2, ![4096, 2048]⟩
abbrev S4x1024 : Shape := ⟨2, ![4, 1024]⟩
abbrev S1024 : Shape := ⟨1, ![1024]⟩
abbrev S8192x2048 : Shape := ⟨2, ![8192, 2048]⟩
abbrev S8192x4096 : Shape := ⟨2, ![8192, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 205
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S4096x2048, .f32⟩
  | 4 => ⟨S4x1024, .f32⟩
  | 5 => ⟨S4x1024, .f32⟩
  | 6 => ⟨S1024, .f32⟩
  | 7 => ⟨S1024, .f32⟩
  | 8 => ⟨S8192x2048, .f32⟩
  | 9 => ⟨S8192x4096, .f32⟩
  | 10 => ⟨S8192x1024, .f32⟩
  | 11 => ⟨S8192x1024, .f32⟩
  | 12 => ⟨S8192x1024, .f32⟩
  | 13 => ⟨S8192x1024, .f32⟩
  | 14 => ⟨S1x1024, .f32⟩
  | 15 => ⟨S1024, .f32⟩
  | 16 => ⟨S1x1024, .f32⟩
  | 17 => ⟨S1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S_, .f32⟩
  | 36 => ⟨S8192x1, .f32⟩
  | 37 => ⟨S8192x1, .f32⟩
  | 38 => ⟨S8192x1, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S1x1024, .f32⟩
  | 56 => ⟨S1024, .f32⟩
  | 57 => ⟨S1x1024, .f32⟩
  | 58 => ⟨S1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S8192x1024, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S_, .f32⟩
  | 77 => ⟨S8192x1, .f32⟩
  | 78 => ⟨S8192x1, .f32⟩
  | 79 => ⟨S8192x1, .f32⟩
  | 80 => ⟨S8192x1024, .f32⟩
  | 81 => ⟨S8192x1024, .f32⟩
  | 82 => ⟨S1x1024, .f32⟩
  | 83 => ⟨S8192x1024, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S1x1024, .f32⟩
  | 90 => ⟨S1024, .f32⟩
  | 91 => ⟨S1x1024, .f32⟩
  | 92 => ⟨S1024, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S_, .f32⟩
  | 111 => ⟨S8192x1, .f32⟩
  | 112 => ⟨S8192x1, .f32⟩
  | 113 => ⟨S8192x1, .f32⟩
  | 114 => ⟨S8192x1024, .f32⟩
  | 115 => ⟨S8192x1024, .f32⟩
  | 116 => ⟨S1x1024, .f32⟩
  | 117 => ⟨S8192x1024, .f32⟩
  | 118 => ⟨S8192x1024, .f32⟩
  | 119 => ⟨S1x1024, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192x1024, .f32⟩
  | 1 => ⟨S8192x1024, .f32⟩
  | 2 => ⟨S1x1024, .f32⟩
  | 3 => ⟨S1024, .f32⟩
  | 4 => ⟨S1x1024, .f32⟩
  | 5 => ⟨S1024, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S8192x1024, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S_, .f32⟩
  | 24 => ⟨S8192x1, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S8192x1024, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S_, .f32⟩
  | 64 => ⟨S8192x1, .f32⟩
  | 65 => ⟨S8192x1, .f32⟩
  | 66 => ⟨S8192x1, .f32⟩
  | 67 => ⟨S8192x1024, .f32⟩
  | 68 => ⟨S8192x1024, .f32⟩
  | 69 => ⟨S1x1024, .f32⟩
  | 70 => ⟨S8192x1024, .f32⟩
  | 71 => ⟨S8192x1024, .f32⟩
  | 72 => ⟨S1x1024, .f32⟩
  | 73 => ⟨S8192x1024, .f32⟩
  | 74 => ⟨S8192x1024, .f32⟩
  | 75 => ⟨S8192x1024, .f32⟩
  | 76 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_cst_14 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_15 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_16 : Ref sig .tc := ⟨.hbm, 124, rfl⟩
abbrev main_v99 : Ref sig .tc := ⟨.hbm, 125, rfl⟩
abbrev main_v100 : Ref sig .tc := ⟨.hbm, 126, rfl⟩
abbrev main_cst_17 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_18 : Ref sig .tc := ⟨.hbm, 134, rfl⟩
abbrev main_v107 : Ref sig .tc := ⟨.hbm, 135, rfl⟩
abbrev main_v108 : Ref sig .tc := ⟨.hbm, 136, rfl⟩
abbrev main_cst_19 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_20 : Ref sig .tc := ⟨.hbm, 143, rfl⟩
abbrev main_v114 : Ref sig .tc := ⟨.hbm, 144, rfl⟩
abbrev main_v115 : Ref sig .tc := ⟨.hbm, 145, rfl⟩
abbrev main_cst_21 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_22 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_23 : Ref sig .tc := ⟨.hbm, 165, rfl⟩
abbrev main_v133 : Ref sig .tc := ⟨.hbm, 166, rfl⟩
abbrev main_v134 : Ref sig .tc := ⟨.hbm, 167, rfl⟩
abbrev main_cst_24 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_25 : Ref sig .tc := ⟨.hbm, 174, rfl⟩
abbrev main_v140 : Ref sig .tc := ⟨.hbm, 175, rfl⟩
abbrev main_v141 : Ref sig .tc := ⟨.hbm, 176, rfl⟩
abbrev main_cst_26 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_27 : Ref sig .tc := ⟨.hbm, 183, rfl⟩
abbrev main_v147 : Ref sig .tc := ⟨.hbm, 184, rfl⟩
abbrev main_v148 : Ref sig .tc := ⟨.hbm, 185, rfl⟩
abbrev main_cst_28 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_29 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  slices_S4x1024_S1x1024_0_0 : S4x1024.Slices ![0, 0] S1x1024
  shapeCasts_S1x1024_S1024 : S1x1024.ShapeCasts S1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  slices_S4x1024_S1x1024_1_0 : S4x1024.Slices ![1, 0] S1x1024
  slices_S4x1024_S1x1024_2_0 : S4x1024.Slices ![2, 0] S1x1024
  slices_S4x1024_S1x1024_3_0 : S4x1024.Slices ![3, 0] S1x1024
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.CellSpec.lean ====
/-
  The layer-normalised LSTM cell, row by row, on the extended reals.

  A row is a vector of 1024 extended reals. Its mean is the row sum divided by 1024. Two formulas for its variance:
  the mean of the squares minus the square of the mean, and the mean of the squared deviations from the mean. On a row of
  REAL numbers they agree (expand the square and use that the row has exactly 1024 entries); on the extended reals they
  need not, since infinities do not cancel. The normalisation of a row with a given variance `v` is
  `(x q - mean) · (v + ε)^(-1/2) · g q + b q`.

  The cell: from four pre-activation rows and the old cell row,
  `c' = i · j + f · c` with `i = σ(LN pᵢ)`, `j = tanh(LN pⱼ)`, `f = σ(LN p_f)`; the new cell row is `LN c'` and the new
  hidden row is `σ(LN pₒ) · tanh(LN c')`. The logistic function and tanh send EVERY extended real to a real number
  (their values at the infinities are 0, 1 and -1, 1), so `c'` is a real row as soon as `c` is, whatever the
  normalisations returned. Hence with either variance formula the cell is the same function of real pre-activations.
-/
import Idealize.ShloMosaic.PureOps.Ideal
import Idealize.ShloMosaic.PureOps.Ideal.Laws
import Mathlib.Tactic
import proofs.«178925_j24927990186081_2_alg».proof.Proof.LibERealCoe

noncomputable section

namespace Cert.Cell

open Idealize.ShloMosaic

/-- A row of the hidden width. -/
abbrev Row := Fin 1024 → EReal

/-- The divisor of the means, the f32 word of 1024. -/
def c1024 : EReal := Ideal.ofBits .f32 0x44800000#32
/-- The stabiliser under the square root, as the f32 word both programs spell. -/
def epsv : EReal := Ideal.ofBits .f32 0x3727C5AC#32

/-- The word `0x44800000` denotes the real number 1024. -/
theorem c1024_eq : c1024 = ((1024 : ℝ) : EReal) := by
  unfold c1024
  simp [Ideal.ofBits, Ideal.ieee, -EReal.coe_mul]; norm_num

/-- The word `0x3F800000` denotes 1. -/
theorem ofBits_one : Ideal.ofBits .f32 0x3F800000#32 = (1 : EReal) := by
  simp [Ideal.ofBits, Ideal.ieee, -EReal.coe_mul]; norm_num

/-- A real row: every entry is a real number. -/
def IsReal (x : Row) : Prop := ∀ k, ∃ r : ℝ, x k = (r : EReal)

def mean (x : Row) : EReal := Ideal.div (∑ k, x k) c1024
/-- Mean of squares minus square of the mean. -/
def varK (x : Row) : EReal := Ideal.div (∑ k, x k * x k) c1024 - mean x * mean x
/-- Mean of the squared deviations. -/
def varR (x : Row) : EReal := Ideal.div (∑ k, (x k - mean x) * (x k - mean x)) c1024
/-- The normalisation of a row given its variance. -/
def lnW (v : EReal) (x g b : Row) : Row := fun q => (x q - mean x) * Ideal.rsqrt (v + epsv) * g q + b q
def lnK (x g b : Row) : Row := lnW (varK x) x g b
def lnR (x g b : Row) : Row := lnW (varR x) x g b

/-- Over the reals, for 1024 numbers: E[x²] - E[x]² = E[(x - E[x])²]. -/
theorem var_real (x : Fin 1024 → ℝ) :
    (∑ k, x k * x k) * (1 / 1024) - ((∑ k, x k) * (1 / 1024)) * ((∑ k, x k) * (1 / 1024))
      = (∑ k, (x k - (∑ k, x k) * (1 / 1024)) * (x k - (∑ k, x k) * (1 / 1024))) * (1 / 1024) := by
  have hS : (∑ k, x k) = 1024 * ((∑ k, x k) * (1 / 1024)) := by ring
  generalize (∑ k, x k) * (1 / 1024) = μ at hS ⊢
  have h : ∀ k, (x k - μ) * (x k - μ) = x k * x k - 2 * μ * x k + μ * μ := fun k => by ring
  simp only [h, Finset.sum_add_distrib, Finset.sum_sub_distrib, ← Finset.mul_sum, Finset.sum_const, Finset.card_univ,
    Fintype.card_fin, nsmul_eq_mul]
  rw [hS]; push_cast; ring

/-- On a real row the two variances are one number. -/
theorem varK_eq_varR {x : Row} (hx : IsReal x) : varK x = varR x := by
  choose r hr using hx
  have hx' : x = fun k => ((r k : ℝ) : EReal) := funext hr
  subst hx'
  have h1024 : (1024 : ℝ) ≠ 0 := by norm_num
  unfold varK varR mean
  simp only [c1024_eq, Ideal.div_coe h1024, ← EReal.coe_mul, ← Cert.LibERealCoe.coe_sum, ← EReal.coe_sub]
  exact congrArg _ (var_real r)

theorem lnK_eq_lnR {x : Row} (hx : IsReal x) (g b : Row) : lnK x g b = lnR x g b := by
  unfold lnK lnR; rw [varK_eq_varR hx]

/-- The logistic function of any extended real is a real number. -/
theorem logistic_real (x : EReal) : ∃ r : ℝ, Ideal.logistic x = (r : EReal) := by
  induction x using EReal.rec with
  | bot => exact ⟨0, by simp⟩
  | coe r => exact ⟨_, Ideal.logistic_coe (r := r)⟩
  | top => exact ⟨1, by simp⟩

/-- tanh of any extended real is a real number. -/
theorem tanh_real (x : EReal) : ∃ r : ℝ, Ideal.tanh x = (r : EReal) := by
  induction x using EReal.rec with
  | bot => exact ⟨-1, by simp⟩
  | coe r => exact ⟨_, Ideal.tanh_coe (r := r)⟩
  | top => exact ⟨1, by simp⟩

/-- The cell row before its normalisation, for a given normalisation `L` of rows; `g0 b0`, `g1 b1`, `g2 b2` are the gains
    and offsets of the input, candidate and forget gates. -/
def cellPre (L : Row → Row → Row → Row) (pi pj pf c g0 b0 g1 b1 g2 b2 : Row) : Row := fun k =>
  Ideal.logistic (L pi g0 b0 k) * Ideal.tanh (L pj g1 b1 k) + Ideal.logistic (L pf g2 b2 k) * c k

/-- The new cell row. -/
def newC (L : Row → Row → Row → Row) (pi pj pf c g0 b0 g1 b1 g2 b2 cg cb : Row) : Row :=
  L (cellPre L pi pj pf c g0 b0 g1 b1 g2 b2) cg cb

/-- The new hidden row. -/
def newH (L : Row → Row → Row → Row) (pi pj pf po c g0 b0 g1 b1 g2 b2 g3 b3 cg cb : Row) : Row := fun q =>
  Ideal.logistic (L po g3 b3 q) * Ideal.tanh (newC L pi pj pf c g0 b0 g1 b1 g2 b2 cg cb q)

/-- The cell row before normalisation is real when the old cell row is: σ and tanh are real-valued. -/
theorem cellPre_real (L : Row → Row → Row → Row) (pi pj pf c g0 b0 g1 b1 g2 b2 : Row) (hc : IsReal c) :
    IsReal (cellPre L pi pj pf c g0 b0 g1 b1 g2 b2) := fun k => by
  obtain ⟨r1, h1⟩ := logistic_real (L pi g0 b0 k)
  obtain ⟨r2, h2⟩ := tanh_real (L pj g1 b1 k)
  obtain ⟨r3, h3⟩ := logistic_real (L pf g2 b2 k)
  obtain ⟨r4, h4⟩ := hc k
  refine ⟨r1 * r2 + r3 * r4, ?_⟩
  unfold cellPre
  rw [h1, h2, h3, h4]; push_cast; rfl

theorem cellPre_K_eq_R {pi pj pf : Row} (c g0 b0 g1 b1 g2 b2 : Row) (hi : IsReal pi) (hj : IsReal pj) (hf : IsReal pf) :
    cellPre lnK pi pj pf c g0 b0 g1 b1 g2 b2 = cellPre lnR pi pj pf c g0 b0 g1 b1 g2 b2 := by
  unfold cellPre
  rw [lnK_eq_lnR hi, lnK_eq_lnR hj, lnK_eq_lnR hf]

/-- With real pre-activations and a real old cell row, both variance formulas give the same new cell row. -/
theorem newC_K_eq_R {pi pj pf c : Row} (g0 b0 g1 b1 g2 b2 cg cb : Row) (hi : IsReal pi) (hj : IsReal pj) (hf : IsReal pf)
    (hc : IsReal c) : newC lnK pi pj pf c g0 b0 g1 b1 g2 b2 cg cb = newC lnR pi pj pf c g0 b0 g1 b1 g2 b2 cg cb := by
  unfold newC
  rw [lnK_eq_lnR (cellPre_real lnK pi pj pf c g0 b0 g1 b1 g2 b2 hc), cellPre_K_eq_R c g0 b0 g1 b1 g2 b2 hi hj hf]

/-- … and the same new hidden row. -/
theorem newH_K_eq_R {pi pj pf po c : Row} (g0 b0 g1 b1 g2 b2 g3 b3 cg cb : Row) (hi : IsReal pi) (hj : IsReal pj)
    (hf : IsReal pf) (ho : IsReal po) (hc : IsReal c) :
    newH lnK pi pj pf po c g0 b0 g1 b1 g2 b2 g3 b3 cg cb = newH lnR pi pj pf po c g0 b0 g1 b1 g2 b2 g3 b3 cg cb := by
  unfold newH
  rw [newC_K_eq_R g0 b0 g1 b1 g2 b2 cg cb hi hj hf hc, lnK_eq_lnR ho]

/-- A finite sum of products of real numbers is a real number. -/
theorem sum_mul_real {n : ℕ} (a b : Fin n → EReal) (ha : ∀ k, ∃ r : ℝ, a k = (r : EReal)) (hb : ∀ k, ∃ r : ℝ, b k = (r : EReal)) :
    ∃ r : ℝ, ∑ k, a k * b k = (r : EReal) := by
  choose ra hra using ha
  choose rb hrb using hb
  refine ⟨∑ k, ra k * rb k, ?_⟩
  rw [Cert.LibERealCoe.coe_sum]
  exact Finset.sum_congr rfl fun k _ => by rw [hra k, hrb k, EReal.coe_mul]

end Cert.Cell

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.LibHostRowSum.lean ====
/-
  The host's sum along the columns of a matrix, read at a row.

  On the extended reals a host reduction with `add` along axis 1 of an `[a, b]` matrix, started from a scalar, has at row
  `p` the value "the scalar plus the sum of the `b` entries of row `p`": there is no rounding and no order of summation.
-/
import Idealize.ShloMosaic.Lib.ValueIdx
import Idealize.ShloMosaic.PureOps.Ideal.Laws

namespace Cert.LibHostRowSum

open Idealize.ShloMosaic Idealize.ShloMosaic.ValueIdx

/-- The host's sum along the columns of an `[a, b]` matrix from an initial scalar, at row `p`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hS : 0 < (⟨0, ![]⟩ : Shape).numel) (p : Fin a) :
    Host.reduceAdd x init h' hS (ix1 p) = init (Shape.Idx.first hS) + ∑ k : Fin b, x (ix2 p k) := by
  simp only [Host.reduceAdd, Ideal.hostReduceAdd_def]
  rw [Ideal.hostReduceAdd_single h' h]
  exact congrArg (_ + ·) (Finset.sum_congr rfl fun k _ => congrArg x
    (funext fun ax => Fin.ext (by match ax with | ⟨0, _⟩ => rfl | ⟨1, _⟩ => rfl)))

end Cert.LibHostRowSum
-- ==== Proof.RowOps.lean ====
/-
  Rows of a matrix under the vector operations and under the host operations, read at an index.

  An [a, 1024] matrix is a family of `a` rows. The kernel's way of taking a row statistic (a lane reduction, the result
  cast to a column and broadcast back) and the host's way (a reduce from an initial scalar, broadcast in dimensions) both
  read, at `(p, q)`, a function of row `p` alone: its mean, either of its two variance formulas, its normalisation.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«178925_j24927990186081_2_alg».proof.Proof.CellSpec
import proofs.«178925_j24927990186081_2_alg».proof.Proof.LibKeepdims
import proofs.«178925_j24927990186081_2_alg».proof.Proof.LibBcast
import proofs.«178925_j24927990186081_2_alg».proof.Proof.LibHostRowSum

noncomputable section

namespace Cert.RowOps

open Idealize.ShloMosaic Idealize.ShloMosaic.ValueIdx Cert.Cell

variable {a : ℕ}

/-- The matrix, column and vector shapes over `a` rows. -/
abbrev Mx (a : ℕ) : Shape := ⟨2, ![a, 1024]⟩
abbrev Cl (a : ℕ) : Shape := ⟨2, ![a, 1]⟩
abbrev Vc (a : ℕ) : Shape := ⟨1, ![a]⟩
abbrev R1 : Shape := ⟨2, ![1, 1024]⟩
abbrev Sc : Shape := ⟨0, ![]⟩

/-- Row `p` of a matrix. -/
def rowOf (x : (Mx a).Idx → EReal) (p : Fin a) : Row := fun k => x (ix2 p k)

/-! ## The kernel's operations -/

/-- The row means as a column: lane sum, cast to a column, divided by 1024. -/
def kMean (x : FVec Ideal (Mx a) .f32) (hr : (Mx a).Reduces [1] (Vc a)) (hc : (Vc a).ShapeCasts (Cl a)) : FVec Ideal (Cl a) .f32 :=
  divf (shapeCast (Cl a) (multiReduction .add [1] (Vc a) x 0x00000000#32 hr (.inl rfl) rfl) hc)
    (broadcast (Cl a) (Scalar.ofBits .f32 0x44800000#32))

theorem kMean_apply (x : FVec Ideal (Mx a) .f32) (hr : (Mx a).Reduces [1] (Vc a)) (hc : (Vc a).ShapeCasts (Cl a))
    (p : Fin a) (u : Fin 1) : kMean x hr hc (ix2 p u) = mean (rowOf x p) := by
  unfold kMean
  refine (divf_apply _ _ _).trans ?_
  rw [shapeCast_a_a1_apply]
  exact congrArg (fun z => Ideal.div z c1024) (rowSum_apply x 0x00000000#32 hr (.inl rfl) rfl p)

/-- The row variances as a column, as mean of squares minus squared mean. -/
def kVar (x : FVec Ideal (Mx a) .f32) (hr : (Mx a).Reduces [1] (Vc a)) (hc : (Vc a).ShapeCasts (Cl a)) : FVec Ideal (Cl a) .f32 :=
  subf (divf (shapeCast (Cl a) (multiReduction .add [1] (Vc a) (mulf x x) 0x00000000#32 hr (.inl rfl) rfl) hc)
    (broadcast (Cl a) (Scalar.ofBits .f32 0x44800000#32))) (mulf (kMean x hr hc) (kMean x hr hc))

theorem kVar_apply (x : FVec Ideal (Mx a) .f32) (hr : (Mx a).Reduces [1] (Vc a)) (hc : (Vc a).ShapeCasts (Cl a))
    (p : Fin a) (u : Fin 1) : kVar x hr hc (ix2 p u) = varK (rowOf x p) := by
  unfold kVar
  refine (subf_apply _ _ _).trans ?_
  rw [mulf_apply, kMean_apply, divf_apply, shapeCast_a_a1_apply]
  exact congrArg (fun z => Ideal.div z c1024 - mean (rowOf x p) * mean (rowOf x p))
    (rowSum_apply (mulf x x) 0x00000000#32 hr (.inl rfl) rfl p)

/-- A matrix centred by a column of means and scaled by the inverse square root of a column of variances plus ε. -/
def kNormW (x : FVec Ideal (Mx a) .f32) (mu var : FVec Ideal (Cl a) .f32) (hb : (Cl a).Broadcasts (Mx a)) : FVec Ideal (Mx a) .f32 :=
  mulf (subf x (broadcastTo (Mx a) mu hb))
    (broadcastTo (Mx a) (rsqrt (addf var (broadcast (Cl a) (Scalar.ofBits .f32 0x3727C5AC#32)))) hb)

theorem kNormW_apply (x : FVec Ideal (Mx a) .f32) (mu var : FVec Ideal (Cl a) .f32) (hb : (Cl a).Broadcasts (Mx a))
    (p : Fin a) (q : Fin 1024) :
    kNormW x mu var hb (ix2 p q) = (x (ix2 p q) - mu (ix2 p 0)) * Ideal.rsqrt (var (ix2 p 0) + epsv) := by
  unfold kNormW
  refine (mulf_apply _ _ _).trans ?_
  rw [subf_apply, broadcastTo_a1_ab_apply, broadcastTo_a1_ab_apply]
  rfl

/-- Scale by a vector of gains and shift by a vector of offsets, each repeated over the rows. -/
def kAff (y : FVec Ideal (Mx a) .f32) (g b : FVec Ideal (Vc 1024) .f32) (hc1 : (Vc 1024).ShapeCasts R1)
    (hb1 : R1.Broadcasts (Mx a)) : FVec Ideal (Mx a) .f32 :=
  addf (mulf y (broadcastTo (Mx a) (shapeCast R1 g hc1) hb1)) (broadcastTo (Mx a) (shapeCast R1 b hc1) hb1)

theorem kAff_apply (y : FVec Ideal (Mx a) .f32) (g b : FVec Ideal (Vc 1024) .f32) (hc1 : (Vc 1024).ShapeCasts R1)
    (hb1 : R1.Broadcasts (Mx a)) (p : Fin a) (q : Fin 1024) :
    kAff y g b hc1 hb1 (ix2 p q) = y (ix2 p q) * g (ix1 q) + b (ix1 q) := by
  unfold kAff
  refine (addf_apply _ _ _).trans ?_
  rw [mulf_apply, broadcastTo_1b_ab_apply, broadcastTo_1b_ab_apply, shapeCast_a_1a_apply, shapeCast_a_1a_apply]

/-- The kernel's layer normalisation of every row. -/
def kLN (x : FVec Ideal (Mx a) .f32) (g b : FVec Ideal (Vc 1024) .f32) (hr : (Mx a).Reduces [1] (Vc a))
    (hc : (Vc a).ShapeCasts (Cl a)) (hb : (Cl a).Broadcasts (Mx a)) (hc1 : (Vc 1024).ShapeCasts R1)
    (hb1 : R1.Broadcasts (Mx a)) : FVec Ideal (Mx a) .f32 :=
  kAff (kNormW x (kMean x hr hc) (kVar x hr hc) hb) g b hc1 hb1

theorem kLN_apply (x : FVec Ideal (Mx a) .f32) (g b : FVec Ideal (Vc 1024) .f32) (hr : (Mx a).Reduces [1] (Vc a))
    (hc : (Vc a).ShapeCasts (Cl a)) (hb : (Cl a).Broadcasts (Mx a)) (hc1 : (Vc 1024).ShapeCasts R1)
    (hb1 : R1.Broadcasts (Mx a)) (p : Fin a) (q : Fin 1024) :
    kLN x g b hr hc hb hc1 hb1 (ix2 p q) = lnK (rowOf x p) (fun k => g (ix1 k)) (fun k => b (ix1 k)) q := by
  unfold kLN
  rw [kAff_apply, kNormW_apply, kMean_apply, kVar_apply]
  rfl

/-- Row `s` of a four-row table as a vector: the one-row slice, cast to a vector. -/
theorem tableRow_apply {n : ℕ} (s : ℕ) (hs : s < n) (T : (⟨2, ![n, 1024]⟩ : Shape).Idx → EReal)
    (hsl : (⟨2, ![n, 1024]⟩ : Shape).Slices ![s, 0] R1) (hc2 : R1.ShapeCasts (Vc 1024)) (k : Fin 1024) :
    shapeCast (Vc 1024) (extractStridedSlice R1 ![s, 0] T hsl) hc2 (ix1 k) = T (ix2 ⟨s, hs⟩ k) := by
  rw [shapeCast_1a_a_apply]
  exact slice2_axis0_apply s T hsl (0 : Fin 1) k ⟨s, hs⟩ rfl

/-! ## The host's operations -/

/-- The row means as a column, the host's way. -/
def hMean (x : FVec Ideal (Mx a) .f32) (hrt : (Mx a).ReducesTo [1] (Vc a)) (hS : 0 < Sc.numel)
    (hb0 : (Vc a).BroadcastsInDim (Cl a) ![0]) (hbs : Sc.BroadcastsInDim (Cl a) ![]) : FVec Ideal (Cl a) .f32 :=
  Host.divf (broadcastInDim (Cl a) ![0] hb0 (Host.reduceAdd x (constant Sc .f32 0x00000000#32) hrt hS))
    (broadcastInDim (Cl a) ![] hbs (constant Sc .f32 0x44800000#32))

theorem hMean_apply (x : FVec Ideal (Mx a) .f32) (hrt : (Mx a).ReducesTo [1] (Vc a)) (hS : 0 < Sc.numel)
    (hb0 : (Vc a).BroadcastsInDim (Cl a) ![0]) (hbs : Sc.BroadcastsInDim (Cl a) ![]) (p : Fin a) (u : Fin 1) :
    hMean x hrt hS hb0 hbs (ix2 p u) = mean (rowOf x p) := by
  unfold hMean
  show Ideal.div _ _ = _
  rw [Cert.LibBcast.bid_col_apply, Cert.LibBcast.bid_scalar_apply,
    Cert.LibHostRowSum.hostRowSum_apply x _ hrt ⟨hrt.1, Nat.one_pos, hrt.2⟩ hS p]
  show Ideal.div (Ideal.ofBits .f32 0x00000000#32 + _) _ = _
  rw [Ideal.ofBits_zero_f32, zero_add]
  rfl

/-- A matrix minus its column of row means, the host's way. -/
def hCentre (x : FVec Ideal (Mx a) .f32) (mu : FVec Ideal (Cl a) .f32) (hb : (Cl a).BroadcastsInDim (Mx a) ![0, 1]) :
    FVec Ideal (Mx a) .f32 := subf x (broadcastInDim (Mx a) ![0, 1] hb mu)

theorem hCentre_apply (x : FVec Ideal (Mx a) .f32) (mu : FVec Ideal (Cl a) .f32) (hb : (Cl a).BroadcastsInDim (Mx a) ![0, 1])
    (p : Fin a) (q : Fin 1024) : hCentre x mu hb (ix2 p q) = x (ix2 p q) - mu (ix2 p 0) := by
  unfold hCentre
  refine (subf_apply _ _ _).trans ?_
  rw [Cert.LibBcast.bid_a1_ab_apply]

/-- The row variances as a column, the host's way: the mean of the squared centred entries. -/
def hVar (d : FVec Ideal (Mx a) .f32) (hrt : (Mx a).ReducesTo [1] (Vc a)) (hS : 0 < Sc.numel)
    (hb0 : (Vc a).BroadcastsInDim (Cl a) ![0]) (hbs : Sc.BroadcastsInDim (Cl a) ![]) : FVec Ideal (Cl a) .f32 :=
  Host.divf (broadcastInDim (Cl a) ![0] hb0 (Host.reduceAdd (mulf d d) (constant Sc .f32 0x00000000#32) hrt hS))
    (broadcastInDim (Cl a) ![] hbs (constant Sc .f32 0x44800000#32))

theorem hVar_apply (d : FVec Ideal (Mx a) .f32) (hrt : (Mx a).ReducesTo [1] (Vc a)) (hS : 0 < Sc.numel)
    (hb0 : (Vc a).BroadcastsInDim (Cl a) ![0]) (hbs : Sc.BroadcastsInDim (Cl a) ![]) (p : Fin a) (u : Fin 1) :
    hVar d hrt hS hb0 hbs (ix2 p u) = Ideal.div (∑ k : Fin 1024, d (ix2 p k) * d (ix2 p k)) c1024 := by
  unfold hVar
  show Ideal.div _ _ = _
  rw [Cert.LibBcast.bid_col_apply, Cert.LibBcast.bid_scalar_apply,
    Cert.LibHostRowSum.hostRowSum_apply (mulf d d) _ hrt ⟨hrt.1, Nat.one_pos, hrt.2⟩ hS p]
  show Ideal.div (Ideal.ofBits .f32 0x00000000#32 + _) _ = _
  rw [Ideal.ofBits_zero_f32, zero_add]
  rfl

/-- The host's layer normalisation of every row. -/
def hLN (x : FVec Ideal (Mx a) .f32) (g b : FVec Ideal (Vc 1024) .f32) (hrt : (Mx a).ReducesTo [1] (Vc a)) (hS : 0 < Sc.numel)
    (hb0 : (Vc a).BroadcastsInDim (Cl a) ![0]) (hbs : Sc.BroadcastsInDim (Cl a) ![])
    (hb : (Cl a).BroadcastsInDim (Mx a) ![0, 1]) (hbr : (Vc 1024).BroadcastsInDim R1 ![1])
    (hb1 : R1.BroadcastsInDim (Mx a) ![0, 1]) : FVec Ideal (Mx a) .f32 :=
  addf (mulf (mulf (subf x (broadcastInDim (Mx a) ![0, 1] hb (hMean x hrt hS hb0 hbs)))
      (broadcastInDim (Mx a) ![0, 1] hb (Host.rsqrt (addf
        (hVar (hCentre x (hMean x hrt hS hb0 hbs) hb) hrt hS hb0 hbs)
        (broadcastInDim (Cl a) ![] hbs (constant Sc .f32 0x3727C5AC#32))))))
      (broadcastInDim (Mx a) ![0, 1] hb1 (broadcastInDim R1 ![1] hbr g)))
    (broadcastInDim (Mx a) ![0, 1] hb1 (broadcastInDim R1 ![1] hbr b))

theorem hLN_apply (x : FVec Ideal (Mx a) .f32) (g b : FVec Ideal (Vc 1024) .f32) (hrt : (Mx a).ReducesTo [1] (Vc a)) (hS : 0 < Sc.numel)
    (hb0 : (Vc a).BroadcastsInDim (Cl a) ![0]) (hbs : Sc.BroadcastsInDim (Cl a) ![])
    (hb : (Cl a).BroadcastsInDim (Mx a) ![0, 1]) (hbr : (Vc 1024).BroadcastsInDim R1 ![1])
    (hb1 : R1.BroadcastsInDim (Mx a) ![0, 1]) (p : Fin a) (q : Fin 1024) :
    hLN x g b hrt hS hb0 hbs hb hbr hb1 (ix2 p q) = lnR (rowOf x p) (fun k => g (ix1 k)) (fun k => b (ix1 k)) q := by
  unfold hLN
  refine (addf_apply _ _ _).trans ?_
  rw [mulf_apply, mulf_apply, subf_apply, Cert.LibBcast.bid_a1_ab_apply, Cert.LibBcast.bid_a1_ab_apply,
    Cert.LibBcast.bid_1b_ab_apply, Cert.LibBcast.bid_1b_ab_apply, Cert.LibBcast.bid_row_apply, Cert.LibBcast.bid_row_apply,
    hMean_apply]
  show _ * Ideal.rsqrt (hVar _ hrt hS hb0 hbs (ix2 p 0) + broadcastInDim (Cl a) ![] hbs (constant (F := Ideal) Sc .f32 0x3727C5AC#32) (ix2 p 0)) * _ + _ = _
  rw [hVar_apply, Cert.LibBcast.bid_scalar_apply]
  have e : ∀ k : Fin 1024, hCentre x (hMean x hrt hS hb0 hbs) hb (ix2 p k) = rowOf x p k - mean (rowOf x p) := fun k => by
    rw [hCentre_apply, hMean_apply]; rfl
  simp only [e]
  rfl

/-! ## The cell, by the kernel's operations -/

/-- The entries of a vector as a row. -/
def vr (g : (Vc 1024).Idx → EReal) : Row := fun k => g (ix1 k)

section KernelCell
variable (hr : (Mx a).Reduces [1] (Vc a)) (hc : (Vc a).ShapeCasts (Cl a)) (hb : (Cl a).Broadcasts (Mx a))
  (hc1 : (Vc 1024).ShapeCasts R1) (hb1 : R1.Broadcasts (Mx a))

def kCellPre (xi xj xf c : FVec Ideal (Mx a) .f32) (g0 b0 g1 b1 g2 b2 : FVec Ideal (Vc 1024) .f32) : FVec Ideal (Mx a) .f32 :=
  addf (mulf (logistic (kLN xi g0 b0 hr hc hb hc1 hb1)) (tanh (kLN xj g1 b1 hr hc hb hc1 hb1)))
    (mulf (logistic (kLN xf g2 b2 hr hc hb hc1 hb1)) c)

theorem kCellPre_apply (xi xj xf c : FVec Ideal (Mx a) .f32) (g0 b0 g1 b1 g2 b2 : FVec Ideal (Vc 1024) .f32) (p : Fin a) (q : Fin 1024) :
    kCellPre hr hc hb hc1 hb1 xi xj xf c g0 b0 g1 b1 g2 b2 (ix2 p q)
      = cellPre lnK (rowOf xi p) (rowOf xj p) (rowOf xf p) (rowOf c p) (vr g0) (vr b0) (vr g1) (vr b1) (vr g2) (vr b2) q := by
  unfold kCellPre
  refine (addf_apply _ _ _).trans ?_
  rw [mulf_apply, mulf_apply]
  show Ideal.logistic (kLN xi g0 b0 hr hc hb hc1 hb1 (ix2 p q)) * Ideal.tanh (kLN xj g1 b1 hr hc hb hc1 hb1 (ix2 p q))
    + Ideal.logistic (kLN xf g2 b2 hr hc hb hc1 hb1 (ix2 p q)) * c (ix2 p q) = _
  rw [kLN_apply, kLN_apply, kLN_apply]
  rfl

def kNewC (xi xj xf c : FVec Ideal (Mx a) .f32) (g0 b0 g1 b1 g2 b2 cg cb : FVec Ideal (Vc 1024) .f32) : FVec Ideal (Mx a) .f32 :=
  kLN (kCellPre hr hc hb hc1 hb1 xi xj xf c g0 b0 g1 b1 g2 b2) cg cb hr hc hb hc1 hb1

theorem kNewC_apply (xi xj xf c : FVec Ideal (Mx a) .f32) (g0 b0 g1 b1 g2 b2 cg cb : FVec Ideal (Vc 1024) .f32) (p : Fin a) (q : Fin 1024) :
    kNewC hr hc hb hc1 hb1 xi xj xf c g0 b0 g1 b1 g2 b2 cg cb (ix2 p q)
      = newC lnK (rowOf xi p) (rowOf xj p) (rowOf xf p) (rowOf c p) (vr g0) (vr b0) (vr g1) (vr b1) (vr g2) (vr b2) (vr cg) (vr cb) q := by
  unfold kNewC
  rw [kLN_apply]
  have e : rowOf (kCellPre hr hc hb hc1 hb1 xi xj xf c g0 b0 g1 b1 g2 b2) p
      = cellPre lnK (rowOf xi p) (rowOf xj p) (rowOf xf p) (rowOf c p) (vr g0) (vr b0) (vr g1) (vr b1) (vr g2) (vr b2) :=
    funext fun k => kCellPre_apply hr hc hb hc1 hb1 xi xj xf c g0 b0 g1 b1 g2 b2 p k
  rw [e]
  rfl

def kNewH (xi xj xf xo c : FVec Ideal (Mx a) .f32) (g0 b0 g1 b1 g2 b2 g3 b3 cg cb : FVec Ideal (Vc 1024) .f32) : FVec Ideal (Mx a) .f32 :=
  mulf (logistic (kLN xo g3 b3 hr hc hb hc1 hb1)) (tanh (kNewC hr hc hb hc1 hb1 xi xj xf c g0 b0 g1 b1 g2 b2 cg cb))

theorem kNewH_apply (xi xj xf xo c : FVec Ideal (Mx a) .f32) (g0 b0 g1 b1 g2 b2 g3 b3 cg cb : FVec Ideal (Vc 1024) .f32) (p : Fin a) (q : Fin 1024) :
    kNewH hr hc hb hc1 hb1 xi xj xf xo c g0 b0 g1 b1 g2 b2 g3 b3 cg cb (ix2 p q)
      = newH lnK (rowOf xi p) (rowOf xj p) (rowOf xf p) (rowOf xo p) (rowOf c p) (vr g0) (vr b0) (vr g1) (vr b1) (vr g2) (vr b2)
          (vr g3) (vr b3) (vr cg) (vr cb) q := by
  unfold kNewH
  refine (mulf_apply _ _ _).trans ?_
  show Ideal.logistic (kLN xo g3 b3 hr hc hb hc1 hb1 (ix2 p q))
    * Ideal.tanh (kNewC hr hc hb hc1 hb1 xi xj xf c g0 b0 g1 b1 g2 b2 cg cb (ix2 p q)) = _
  rw [kLN_apply, kNewC_apply]
  rfl

end KernelCell

/-! ## The cell, by the host's operations -/

/-- The host's logistic function, spelt `1 / (1 + exp (-y))`. -/
def hSig (y : FVec Ideal (Mx a) .f32) (hbsM : Sc.BroadcastsInDim (Mx a) ![]) : FVec Ideal (Mx a) .f32 :=
  Host.divf (broadcastInDim (Mx a) ![] hbsM (constant Sc .f32 0x3F800000#32))
    (addf (broadcastInDim (Mx a) ![] hbsM (constant Sc .f32 0x3F800000#32)) (Host.exp (Host.negf y)))

theorem hSig_apply (y : FVec Ideal (Mx a) .f32) (hbsM : Sc.BroadcastsInDim (Mx a) ![]) (i : (Mx a).Idx) :
    hSig y hbsM i = Ideal.logistic (y i) := by
  unfold hSig
  show Ideal.div (broadcastInDim (Mx a) ![] hbsM (constant (F := Ideal) Sc .f32 0x3F800000#32) i)
    (broadcastInDim (Mx a) ![] hbsM (constant (F := Ideal) Sc .f32 0x3F800000#32) i + Ideal.exp (-(y i))) = _
  rw [Cert.LibBcast.bid_scalar_apply]
  show Ideal.div (Ideal.ofBits .f32 0x3F800000#32) (Ideal.ofBits .f32 0x3F800000#32 + Ideal.exp (-(y i))) = _
  rw [ofBits_one]
  rfl

section HostCell
variable (hrt : (Mx a).ReducesTo [1] (Vc a)) (hS : 0 < Sc.numel)
  (hb0 : (Vc a).BroadcastsInDim (Cl a) ![0]) (hbs : Sc.BroadcastsInDim (Cl a) ![])
  (hb : (Cl a).BroadcastsInDim (Mx a) ![0, 1]) (hbr : (Vc 1024).BroadcastsInDim R1 ![1])
  (hb1 : R1.BroadcastsInDim (Mx a) ![0, 1]) (hbsM : Sc.BroadcastsInDim (Mx a) ![])

def hCellPre (xi xj xf c : FVec Ideal (Mx a) .f32) (g0 b0 g1 b1 g2 b2 : FVec Ideal (Vc 1024) .f32) : FVec Ideal (Mx a) .f32 :=
  addf (mulf (hSig (hLN xi g0 b0 hrt hS hb0 hbs hb hbr hb1) hbsM) (Host.tanh (hLN xj g1 b1 hrt hS hb0 hbs hb hbr hb1)))
    (mulf (hSig (hLN xf g2 b2 hrt hS hb0 hbs hb hbr hb1) hbsM) c)

theorem hCellPre_apply (xi xj xf c : FVec Ideal (Mx a) .f32) (g0 b0 g1 b1 g2 b2 : FVec Ideal (Vc 1024) .f32) (p : Fin a) (q : Fin 1024) :
    hCellPre hrt hS hb0 hbs hb hbr hb1 hbsM xi xj xf c g0 b0 g1 b1 g2 b2 (ix2 p q)
      = cellPre lnR (rowOf xi p) (rowOf xj p) (rowOf xf p) (rowOf c p) (vr g0) (vr b0) (vr g1) (vr b1) (vr g2) (vr b2) q := by
  unfold hCellPre
  refine (addf_apply _ _ _).trans ?_
  rw [mulf_apply, mulf_apply, hSig_apply, hSig_apply]
  show Ideal.logistic (hLN xi g0 b0 hrt hS hb0 hbs hb hbr hb1 (ix2 p q)) * Ideal.tanh (hLN xj g1 b1 hrt hS hb0 hbs hb hbr hb1 (ix2 p q))
    + Ideal.logistic (hLN xf g2 b2 hrt hS hb0 hbs hb hbr hb1 (ix2 p q)) * c (ix2 p q) = _
  rw [hLN_apply, hLN_apply, hLN_apply]
  rfl

def hNewC (xi xj xf c : FVec Ideal (Mx a) .f32) (g0 b0 g1 b1 g2 b2 cg cb : FVec Ideal (Vc 1024) .f32) : FVec Ideal (Mx a) .f32 :=
  hLN (hCellPre hrt hS hb0 hbs hb hbr hb1 hbsM xi xj xf c g0 b0 g1 b1 g2 b2) cg cb hrt hS hb0 hbs hb hbr hb1

theorem hNewC_apply (xi xj xf c : FVec Ideal (Mx a) .f32) (g0 b0 g1 b1 g2 b2 cg cb : FVec Ideal (Vc 1024) .f32) (p : Fin a) (q : Fin 1024) :
    hNewC hrt hS hb0 hbs hb hbr hb1 hbsM xi xj xf c g0 b0 g1 b1 g2 b2 cg cb (ix2 p q)
      = newC lnR (rowOf xi p) (rowOf xj p) (rowOf xf p) (rowOf c p) (vr g0) (vr b0) (vr g1) (vr b1) (vr g2) (vr b2) (vr cg) (vr cb) q := by
  unfold hNewC
  rw [hLN_apply]
  have e : rowOf (hCellPre hrt hS hb0 hbs hb hbr hb1 hbsM xi xj xf c g0 b0 g1 b1 g2 b2) p
      = cellPre lnR (rowOf xi p) (rowOf xj p) (rowOf xf p) (rowOf c p) (vr g0) (vr b0) (vr g1) (vr b1) (vr g2) (vr b2) :=
    funext fun k => hCellPre_apply hrt hS hb0 hbs hb hbr hb1 hbsM xi xj xf c g0 b0 g1 b1 g2 b2 p k
  rw [e]
  rfl

def hNewH (xi xj xf xo c : FVec Ideal (Mx a) .f32) (g0 b0 g1 b1 g2 b2 g3 b3 cg cb : FVec Ideal (Vc 1024) .f32) : FVec Ideal (Mx a) .f32 :=
  mulf (hSig (hLN xo g3 b3 hrt hS hb0 hbs hb hbr hb1) hbsM)
    (Host.tanh (hNewC hrt hS hb0 hbs hb hbr hb1 hbsM xi xj xf c g0 b0 g1 b1 g2 b2 cg cb))

theorem hNewH_apply (xi xj xf xo c : FVec Ideal (Mx a) .f32) (g0 b0 g1 b1 g2 b2 g3 b3 cg cb : FVec Ideal (Vc 1024) .f32) (p : Fin a) (q : Fin 1024) :
    hNewH hrt hS hb0 hbs hb hbr hb1 hbsM xi xj xf xo c g0 b0 g1 b1 g2 b2 g3 b3 cg cb (ix2 p q)
      = newH lnR (rowOf xi p) (rowOf xj p) (rowOf xf p) (rowOf xo p) (rowOf c p) (vr g0) (vr b0) (vr g1) (vr b1) (vr g2) (vr b2)
          (vr g3) (vr b3) (vr cg) (vr cb) q := by
  unfold hNewH
  refine (mulf_apply _ _ _).trans ?_
  rw [hSig_apply]
  show Ideal.logistic (hLN xo g3 b3 hrt hS hb0 hbs hb hbr hb1 (ix2 p q))
    * Ideal.tanh (hNewC hrt hS hb0 hbs hb hbr hb1 hbsM xi xj xf c g0 b0 g1 b1 g2 b2 cg cb (ix2 p q)) = _
  rw [hLN_apply, hNewC_apply]
  rfl

end HostCell

/-! ## The pre-activations -/

/-- The pre-activation of unit `j` at row `r`: the input row against the first 1024 columns of the weight row `j`, plus
    the hidden row against its last 1024 columns. -/
def preK (X H : (Mx a).Idx → EReal) (W : (⟨2, ![4096, 2048]⟩ : Shape).Idx → EReal) (r : Fin a) (j : Fin 4096) : EReal :=
  ∑ c : Fin 1024, X (ix2 r c) * W (ix2 j (Fin.castAdd 1024 c)) + ∑ c : Fin 1024, H (ix2 r c) * W (ix2 j (Fin.natAdd 1024 c))

/-- Unit `k` of gate `s` among the 4096 units. -/
def gateIdx (s : Fin 4) (k : Fin 1024) : Fin 4096 := ⟨1024 * s.val + k.val, by have := s.isLt; have := k.isLt; omega⟩

/-- The pre-activation row of gate `s` at row `r`. -/
def preRow (X H : (Mx a).Idx → EReal) (W : (⟨2, ![4096, 2048]⟩ : Shape).Idx → EReal) (r : Fin a) (s : Fin 4) : Row :=
  fun k => preK X H W r (gateIdx s k)

/-- Pre-activation rows of two matrices agree when the rows and the weights do. -/
theorem preRow_congr {b : ℕ} (X H : (Mx a).Idx → EReal) (X' H' : (Mx b).Idx → EReal)
    (W W' : (⟨2, ![4096, 2048]⟩ : Shape).Idx → EReal) (p : Fin a) (r : Fin b)
    (hX : ∀ c, X (ix2 p c) = X' (ix2 r c)) (hH : ∀ c, H (ix2 p c) = H' (ix2 r c)) (hW : ∀ i, W i = W' i) (s : Fin 4) :
    preRow X H W p s = preRow X' H' W' r s := by
  funext k
  unfold preRow preK
  simp only [hX, hH, hW]

/-- Real inputs and weights give real pre-activations. -/
theorem preRow_real (X H : (Mx a).Idx → EReal) (W : (⟨2, ![4096, 2048]⟩ : Shape).Idx → EReal)
    (hX : ∀ i, ∃ r : ℝ, X i = (r : EReal)) (hH : ∀ i, ∃ r : ℝ, H i = (r : EReal)) (hW : ∀ i, ∃ r : ℝ, W i = (r : EReal))
    (r : Fin a) (s : Fin 4) : IsReal (preRow X H W r s) := fun k => by
  obtain ⟨r1, h1⟩ := sum_mul_real (fun c : Fin 1024 => X (ix2 r c)) (fun c => W (ix2 (gateIdx s k) (Fin.castAdd 1024 c)))
    (fun c => hX _) (fun c => hW _)
  obtain ⟨r2, h2⟩ := sum_mul_real (fun c : Fin 1024 => H (ix2 r c)) (fun c => W (ix2 (gateIdx s k) (Fin.natAdd 1024 c)))
    (fun c => hH _) (fun c => hW _)
  refine ⟨r1 + r2, ?_⟩
  show (∑ c : Fin 1024, X (ix2 r c) * W (ix2 (gateIdx s k) (Fin.castAdd 1024 c)))
    + (∑ c : Fin 1024, H (ix2 r c) * W (ix2 (gateIdx s k) (Fin.natAdd 1024 c))) = _
  rw [h1, h2, EReal.coe_add]

end Cert.RowOps

end
-- ==== Proof.CellArrays.lean ====
/-
  The two results as functions of the eight argument arrays, entry by entry.

  Entry `(r, q)` of the new cell state is the new cell row, at `q`, made from row `r`'s four pre-activation rows and row `r`
  of the old cell state; the new hidden state likewise. Both depend on the choice of the variance formula; when the
  inputs, the hidden state, the cell state and the weights hold real numbers, the pre-activation rows are real and the
  two choices give the same arrays.
-/
import proofs.«178925_j24927990186081_2_alg».proof.Proof.RowOps

noncomputable section

namespace Cert.Arrays

open Idealize.ShloMosaic Idealize.ShloMosaic.ValueIdx Cert.Cell Cert.RowOps

abbrev SW : Shape := ⟨2, ![4096, 2048]⟩
abbrev ST : Shape := ⟨2, ![4, 1024]⟩

/-- Every entry of an array is a real number. -/
def AllReal {s : Shape} (A : s.Idx → EReal) : Prop := ∀ i, ∃ r : ℝ, A i = (r : EReal)

/-- Row `s` of a four-row table. -/
def tr (T : ST.Idx → EReal) (s : Fin 4) : Row := fun k => T (ix2 s k)

/-- The new cell state. -/
def GC (L : Row → Row → Row → Row) (X H C : (Mx 8192).Idx → EReal) (W : SW.Idx → EReal) (G4 B4 : ST.Idx → EReal)
    (CG CB : (Vc 1024).Idx → EReal) : (Mx 8192).Idx → EReal := fun i =>
  newC L (preRow X H W (i 0) 0) (preRow X H W (i 0) 1) (preRow X H W (i 0) 2) (rowOf C (i 0))
    (tr G4 0) (tr B4 0) (tr G4 1) (tr B4 1) (tr G4 2) (tr B4 2) (vr CG) (vr CB) (i 1)

/-- The new hidden state. -/
def GH (L : Row → Row → Row → Row) (X H C : (Mx 8192).Idx → EReal) (W : SW.Idx → EReal) (G4 B4 : ST.Idx → EReal)
    (CG CB : (Vc 1024).Idx → EReal) : (Mx 8192).Idx → EReal := fun i =>
  newH L (preRow X H W (i 0) 0) (preRow X H W (i 0) 1) (preRow X H W (i 0) 2) (preRow X H W (i 0) 3) (rowOf C (i 0))
    (tr G4 0) (tr B4 0) (tr G4 1) (tr B4 1) (tr G4 2) (tr B4 2) (tr G4 3) (tr B4 3) (vr CG) (vr CB) (i 1)

variable {X H C : (Mx 8192).Idx → EReal} {W : SW.Idx → EReal}

theorem GC_K_eq_R (hX : AllReal X) (hH : AllReal H) (hC : AllReal C) (hW : AllReal W) (G4 B4 : ST.Idx → EReal)
    (CG CB : (Vc 1024).Idx → EReal) : GC lnK X H C W G4 B4 CG CB = GC lnR X H C W G4 B4 CG CB :=
  funext fun i => congrFun (newC_K_eq_R _ _ _ _ _ _ _ _ (preRow_real X H W hX hH hW (i 0) 0) (preRow_real X H W hX hH hW (i 0) 1)
    (preRow_real X H W hX hH hW (i 0) 2) (fun k => hC _)) (i 1)

theorem GH_K_eq_R (hX : AllReal X) (hH : AllReal H) (hC : AllReal C) (hW : AllReal W) (G4 B4 : ST.Idx → EReal)
    (CG CB : (Vc 1024).Idx → EReal) : GH lnK X H C W G4 B4 CG CB = GH lnR X H C W G4 B4 CG CB :=
  funext fun i => congrFun (newH_K_eq_R _ _ _ _ _ _ _ _ _ _ (preRow_real X H W hX hH hW (i 0) 0) (preRow_real X H W hX hH hW (i 0) 1)
    (preRow_real X H W hX hH hW (i 0) 2) (preRow_real X H W hX hH hW (i 0) 3) (fun k => hC _)) (i 1)

end Cert.Arrays

end
-- ==== Proof.LibDotLastAxis.lean ====
/-
  A matrix product contracted over the LAST axis of both operands, read at an entry, on the extended reals.

  For an `m × k` matrix `A` and an `n × k` matrix `B` (the right operand given with the contracted axis last, as a weight
  matrix stored row by row), the product with dimension numbers "contract axis 1 with axis 1" has, at `(p, j)`, the value
  `∑ c, A (p, c) · B (j, c)`. On the extended reals a kernel's matrix unit accumulating into a zero tile and the host's
  product are this same sum: there is no rounding and no order of accumulation to tell them apart.
-/
import Idealize.ShloMosaic.PureOps.Ideal
import Idealize.ShloMosaic.PureOps.Ideal.Laws
import Idealize.ShloMosaic.Lib.ValueIdx

noncomputable section

namespace Cert.LibDotLastAxis

open Idealize.ShloMosaic Idealize.ShloMosaic.ValueIdx

/-- The matrix unit's product into a zero tile, both operands contracted on their last axis, at `(p, j)`. -/
theorem matmulT_zero_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 p j)
      = ∑ c : Fin k, A (ix2 p c) * B (ix2 j c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 p j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- The host's product with the same dimension numbers, at `(p, j)`. -/
theorem dotGeneralT_apply {m k n : ℕ} {φ₁ φ₂ : FTy}
    (w : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (p : Fin m) (j : Fin n) :
    Host.dotGeneral (F := Ideal) (⟨[1], [1], [0], [0], [], [], w⟩ : DotDims ⟨2, ![m, k]⟩ ⟨2, ![n, k]⟩ ⟨2, ![m, n]⟩) prec A B (ix2 p j)
      = ∑ c : Fin k, A (ix2 p c) * B (ix2 j c) :=
  (Ideal.dotGeneral_apply _ prec .single A B (ix2 p j)).trans
    ((Ideal.matmul_constant_zero_apply _ none A B (ix2 p j)).symm.trans (matmulT_zero_apply w none A B p j))

end Cert.LibDotLastAxis

end
-- ==== Proof.KernelPay.lean ====
/-
  The kernel body's two stored values, read at an entry of the block.

  At grid point `t` the body holds 256 rows of the inputs, of the hidden state and of the cell state, the whole weight
  matrix and the gain / offset tables. The pre-activation block is the sum of two products contracted over the last axis:
  the input rows against the first 1024 columns of the weights, the hidden rows against the last 1024. Its four column
  slices are the gates' pre-activations. Everything after is row-wise: the value stored for the new cell state at `(p, q)`
  is the new cell row of row `p` at `q`, with the variance taken as mean of squares minus squared mean, and the value stored
  for the new hidden state is the new hidden row of row `p` at `q`.
-/
import proofs.«178925_j24927990186081_2_alg».proof.Proof.Gen.KernelIdeal.Skeleton
import proofs.«178925_j24927990186081_2_alg».proof.Proof.CellArrays
import proofs.«178925_j24927990186081_2_alg».proof.Proof.LibDotLastAxis

noncomputable section

namespace Cert.KernelIdeal.Pay

open Cert.KernelIdeal Cert.KernelIdeal.Gen Idealize.ShloMosaic Idealize.ShloMosaic.ValueIdx Cert.Cell Cert.RowOps Cert.Arrays Cert.LibDotLastAxis

variable (P0 P1 P5 : Vec Ideal S256x1024 .f32) (P2 : Vec Ideal S4096x2048 .bf16) (P3 P4 : Vec Ideal S4x1024 .f32)
  (P6 P7 : Vec Ideal S1x1024 .f32)

/-- The pre-activation block at `(p, j)`. -/
theorem pre_apply (p : Fin 256) (j : Fin 4096) : k0_pay3 P0 P1 P2 (ix2 p j) = preK (a := 256) P0 P1 P2 p j := by
  unfold k0_pay3
  refine (addf_apply _ _ _).trans ?_
  refine congrArg₂ (· + ·) ?_ ?_
  · refine (matmulT_zero_apply dot_S256x1024_S4096x1024_S256x4096_1_1_0_0_n_n_wf none _ _ p j).trans ?_
    refine Finset.sum_congr rfl fun c _ => ?_
    rw [shapeCast_self]
    exact congrArg (P0 (ix2 p c) * ·) (slice2_axis1_apply 0 P2 _ j c (Fin.castAdd 1024 c) (by simp))
  · refine (matmulT_zero_apply dot_S256x1024_S4096x1024_S256x4096_1_1_0_0_n_n_wf none _ _ p j).trans ?_
    refine Finset.sum_congr rfl fun c _ => ?_
    rw [shapeCast_self]
    exact congrArg (P1 (ix2 p c) * ·) (slice2_axis1_apply 1024 P2 _ j c (Fin.natAdd 1024 c) rfl)

/-- Gate `s`'s column slice of the pre-activation block, row `p`. -/
theorem slice_row (s : Fin 4) (hsl : S256x4096.Slices ![0, 1024 * s.val] S256x1024) (p : Fin 256) :
    rowOf (a := 256) (extractStridedSlice S256x1024 ![0, 1024 * s.val] (k0_pay3 P0 P1 P2) hsl) p = preRow (a := 256) P0 P1 P2 p s :=
  funext fun k => (slice2_axis1_apply (1024 * s.val) (k0_pay3 P0 P1 P2) hsl p k (gateIdx s k) rfl).trans
    (pre_apply P0 P1 P2 p (gateIdx s k))

/-- Row `s` of a gain / offset table, as the vector the body makes of it. -/
theorem table_row (T : Vec Ideal S4x1024 .f32) (s : ℕ) (hs : s < 4) (hsl : S4x1024.Slices ![s, 0] S1x1024) :
    vr (shapeCast S1024 (extractStridedSlice S1x1024 ![s, 0] T hsl) shapeCasts_S1x1024_S1024) = fun k => T (ix2 ⟨s, hs⟩ k) :=
  funext fun k => tableRow_apply s hs T hsl shapeCasts_S1x1024_S1024 k

/-- The cell's gain / offset row, loaded as a one-row matrix. -/
theorem cell_row (T : Vec Ideal S1x1024 .f32) :
    vr (shapeCast S1024 (shapeCast S1x1024 T shapeCasts_S1x1024_S1x1024) shapeCasts_S1x1024_S1024) = fun k => T (ix2 (0 : Fin 1) k) :=
  funext fun k => by
    show shapeCast S1024 (shapeCast S1x1024 T shapeCasts_S1x1024_S1x1024) shapeCasts_S1x1024_S1024 (ix1 k) = _
    rw [shapeCast_1a_a_apply, shapeCast_self]

/-- The value stored for the new cell state is the cell's operations of the gate slices. -/
theorem payC_eq :
    k0_pay1 (k0_pay17 P5 (k0_pay5 P0 P1 P2) (k0_pay10 (k0_pay7 P3) (k0_pay8 P4) (k0_pay9 P0 P1 P2)) (k0_pay11 (k0_pay4 P0 P1 P2) P3 P4)
        (k0_pay12 P3) (k0_pay13 P4) (k0_pay14 (k0_pay5 P0 P1 P2)) (k0_pay15 (k0_pay5 P0 P1 P2))) (k0_pay18 P6) (k0_pay19 P7)
      = kNewC (a := 256) reduces_S256x1024_S256 shapeCasts_S256_S256x1 broadcasts_S256x1_S256x1024 shapeCasts_S1024_S1x1024
          broadcasts_S1x1024_S256x1024
          (extractStridedSlice S256x1024 ![0, 0] (k0_pay3 P0 P1 P2) slices_S256x4096_o0_0_S256x1024)
          (extractStridedSlice S256x1024 ![0, 1024] (k0_pay3 P0 P1 P2) slices_S256x4096_o0_1024_S256x1024)
          (extractStridedSlice S256x1024 ![0, 2048] (k0_pay3 P0 P1 P2) slices_S256x4096_o0_2048_S256x1024)
          P5
          (shapeCast S1024 (extractStridedSlice S1x1024 ![0, 0] P3 slices_S4x1024_o0_0_S1x1024) shapeCasts_S1x1024_S1024)
          (shapeCast S1024 (extractStridedSlice S1x1024 ![0, 0] P4 slices_S4x1024_o0_0_S1x1024) shapeCasts_S1x1024_S1024)
          (shapeCast S1024 (extractStridedSlice S1x1024 ![1, 0] P3 slices_S4x1024_o1_0_S1x1024) shapeCasts_S1x1024_S1024)
          (shapeCast S1024 (extractStridedSlice S1x1024 ![1, 0] P4 slices_S4x1024_o1_0_S1x1024) shapeCasts_S1x1024_S1024)
          (shapeCast S1024 (extractStridedSlice S1x1024 ![2, 0] P3 slices_S4x1024_o2_0_S1x1024) shapeCasts_S1x1024_S1024)
          (shapeCast S1024 (extractStridedSlice S1x1024 ![2, 0] P4 slices_S4x1024_o2_0_S1x1024) shapeCasts_S1x1024_S1024)
          (shapeCast S1024 (shapeCast S1x1024 P6 shapeCasts_S1x1024_S1x1024) shapeCasts_S1x1024_S1024)
          (shapeCast S1024 (shapeCast S1x1024 P7 shapeCasts_S1x1024_S1x1024) shapeCasts_S1x1024_S1024) := rfl

/-- The value stored for the new hidden state is the cell's operations of the gate slices. -/
theorem payH_eq :
    k0_pay2 (k0_pay16 (k0_pay6 P0 P1 P2) P3 P4)
        (k0_pay17 P5 (k0_pay5 P0 P1 P2) (k0_pay10 (k0_pay7 P3) (k0_pay8 P4) (k0_pay9 P0 P1 P2)) (k0_pay11 (k0_pay4 P0 P1 P2) P3 P4)
        (k0_pay12 P3) (k0_pay13 P4) (k0_pay14 (k0_pay5 P0 P1 P2)) (k0_pay15 (k0_pay5 P0 P1 P2))) (k0_pay18 P6) (k0_pay19 P7)
      = kNewH (a := 256) reduces_S256x1024_S256 shapeCasts_S256_S256x1 broadcasts_S256x1_S256x1024 shapeCasts_S1024_S1x1024
          broadcasts_S1x1024_S256x1024
          (extractStridedSlice S256x1024 ![0, 0] (k0_pay3 P0 P1 P2) slices_S256x4096_o0_0_S256x1024)
          (extractStridedSlice S256x1024 ![0, 1024] (k0_pay3 P0 P1 P2) slices_S256x4096_o0_1024_S256x1024)
          (extractStridedSlice S256x1024 ![0, 2048] (k0_pay3 P0 P1 P2) slices_S256x4096_o0_2048_S256x1024)
          (extractStridedSlice S256x1024 ![0, 3072] (k0_pay3 P0 P1 P2) slices_S256x4096_o0_3072_S256x1024)
          P5
          (shapeCast S1024 (extractStridedSlice S1x1024 ![0, 0] P3 slices_S4x1024_o0_0_S1x1024) shapeCasts_S1x1024_S1024)
          (shapeCast S1024 (extractStridedSlice S1x1024 ![0, 0] P4 slices_S4x1024_o0_0_S1x1024) shapeCasts_S1x1024_S1024)
          (shapeCast S1024 (extractStridedSlice S1x1024 ![1, 0] P3 slices_S4x1024_o1_0_S1x1024) shapeCasts_S1x1024_S1024)
          (shapeCast S1024 (extractStridedSlice S1x1024 ![1, 0] P4 slices_S4x1024_o1_0_S1x1024) shapeCasts_S1x1024_S1024)
          (shapeCast S1024 (extractStridedSlice S1x1024 ![2, 0] P3 slices_S4x1024_o2_0_S1x1024) shapeCasts_S1x1024_S1024)
          (shapeCast S1024 (extractStridedSlice S1x1024 ![2, 0] P4 slices_S4x1024_o2_0_S1x1024) shapeCasts_S1x1024_S1024)
          (shapeCast S1024 (extractStridedSlice S1x1024 ![3, 0] P3 slices_S4x1024_o3_0_S1x1024) shapeCasts_S1x1024_S1024)
          (shapeCast S1024 (extractStridedSlice S1x1024 ![3, 0] P4 slices_S4x1024_o3_0_S1x1024) shapeCasts_S1x1024_S1024)
          (shapeCast S1024 (shapeCast S1x1024 P6 shapeCasts_S1x1024_S1x1024) shapeCasts_S1x1024_S1024)
          (shapeCast S1024 (shapeCast S1x1024 P7 shapeCasts_S1x1024_S1x1024) shapeCasts_S1x1024_S1024) := rfl

/-- The one row of a one-row matrix. -/
def r1 (T : Vec Ideal S1x1024 .f32) : Row := fun k => T (ix2 (0 : Fin 1) k)

/-- The new cell state's stored value at `(p, q)`: the new cell row of row `p`, at `q`. -/
theorem payC_apply (p : Fin 256) (q : Fin 1024) :
    k0_pay1 (k0_pay17 P5 (k0_pay5 P0 P1 P2) (k0_pay10 (k0_pay7 P3) (k0_pay8 P4) (k0_pay9 P0 P1 P2)) (k0_pay11 (k0_pay4 P0 P1 P2) P3 P4)
        (k0_pay12 P3) (k0_pay13 P4) (k0_pay14 (k0_pay5 P0 P1 P2)) (k0_pay15 (k0_pay5 P0 P1 P2))) (k0_pay18 P6) (k0_pay19 P7) (ix2 p q)
      = newC lnK (preRow (a := 256) P0 P1 P2 p 0) (preRow (a := 256) P0 P1 P2 p 1) (preRow (a := 256) P0 P1 P2 p 2) (rowOf (a := 256) P5 p)
          (tr P3 0) (tr P4 0) (tr P3 1) (tr P4 1) (tr P3 2) (tr P4 2) (r1 P6) (r1 P7) q := by
  rw [payC_eq, kNewC_apply]
  have e1 : rowOf (a := 256) (extractStridedSlice S256x1024 ![0, 0] (k0_pay3 P0 P1 P2) slices_S256x4096_o0_0_S256x1024) p = _ := slice_row P0 P1 P2 0 slices_S256x4096_o0_0_S256x1024 p
  have e2 : rowOf (a := 256) (extractStridedSlice S256x1024 ![0, 1024] (k0_pay3 P0 P1 P2) slices_S256x4096_o0_1024_S256x1024) p = _ := slice_row P0 P1 P2 1 slices_S256x4096_o0_1024_S256x1024 p
  have e3 : rowOf (a := 256) (extractStridedSlice S256x1024 ![0, 2048] (k0_pay3 P0 P1 P2) slices_S256x4096_o0_2048_S256x1024) p = _ := slice_row P0 P1 P2 2 slices_S256x4096_o0_2048_S256x1024 p
  rw [e1, e2, e3,
    table_row P3 0 (by decide) slices_S4x1024_o0_0_S1x1024, table_row P4 0 (by decide) slices_S4x1024_o0_0_S1x1024,
    table_row P3 1 (by decide) slices_S4x1024_o1_0_S1x1024, table_row P4 1 (by decide) slices_S4x1024_o1_0_S1x1024,
    table_row P3 2 (by decide) slices_S4x1024_o2_0_S1x1024, table_row P4 2 (by decide) slices_S4x1024_o2_0_S1x1024,
    cell_row P6, cell_row P7]
  rfl

/-- The new hidden state's stored value at `(p, q)`: the new hidden row of row `p`, at `q`. -/
theorem payH_apply (p : Fin 256) (q : Fin 1024) :
    k0_pay2 (k0_pay16 (k0_pay6 P0 P1 P2) P3 P4)
        (k0_pay17 P5 (k0_pay5 P0 P1 P2) (k0_pay10 (k0_pay7 P3) (k0_pay8 P4) (k0_pay9 P0 P1 P2)) (k0_pay11 (k0_pay4 P0 P1 P2) P3 P4)
        (k0_pay12 P3) (k0_pay13 P4) (k0_pay14 (k0_pay5 P0 P1 P2)) (k0_pay15 (k0_pay5 P0 P1 P2))) (k0_pay18 P6) (k0_pay19 P7) (ix2 p q)
      = newH lnK (preRow (a := 256) P0 P1 P2 p 0) (preRow (a := 256) P0 P1 P2 p 1) (preRow (a := 256) P0 P1 P2 p 2)
          (preRow (a := 256) P0 P1 P2 p 3) (rowOf (a := 256) P5 p)
          (tr P3 0) (tr P4 0) (tr P3 1) (tr P4 1) (tr P3 2) (tr P4 2) (tr P3 3) (tr P4 3) (r1 P6) (r1 P7) q := by
  rw [payH_eq, kNewH_apply]
  have e4 : rowOf (a := 256) (extractStridedSlice S256x1024 ![0, 0] (k0_pay3 P0 P1 P2) slices_S256x4096_o0_0_S256x1024) p = _ := slice_row P0 P1 P2 0 slices_S256x4096_o0_0_S256x1024 p
  have e5 : rowOf (a := 256) (extractStridedSlice S256x1024 ![0, 1024] (k0_pay3 P0 P1 P2) slices_S256x4096_o0_1024_S256x1024) p = _ := slice_row P0 P1 P2 1 slices_S256x4096_o0_1024_S256x1024 p
  have e6 : rowOf (a := 256) (extractStridedSlice S256x1024 ![0, 2048] (k0_pay3 P0 P1 P2) slices_S256x4096_o0_2048_S256x1024) p = _ := slice_row P0 P1 P2 2 slices_S256x4096_o0_2048_S256x1024 p
  have e7 : rowOf (a := 256) (extractStridedSlice S256x1024 ![0, 3072] (k0_pay3 P0 P1 P2) slices_S256x4096_o0_3072_S256x1024) p = _ := slice_row P0 P1 P2 3 slices_S256x4096_o0_3072_S256x1024 p
  rw [e4, e5, e6, e7,
    table_row P3 0 (by decide) slices_S4x1024_o0_0_S1x1024, table_row P4 0 (by decide) slices_S4x1024_o0_0_S1x1024,
    table_row P3 1 (by decide) slices_S4x1024_o1_0_S1x1024, table_row P4 1 (by decide) slices_S4x1024_o1_0_S1x1024,
    table_row P3 2 (by decide) slices_S4x1024_o2_0_S1x1024, table_row P4 2 (by decide) slices_S4x1024_o2_0_S1x1024,
    table_row P3 3 (by decide) slices_S4x1024_o3_0_S1x1024, table_row P4 3 (by decide) slices_S4x1024_o3_0_S1x1024,
    cell_row P6, cell_row P7]
  rfl

/-- The value stored for the new cell state, as a function of the body's eight loads. -/
def payC : FVec Ideal S256x1024 .f32 :=
  k0_pay1 (k0_pay17 P5 (k0_pay5 P0 P1 P2) (k0_pay10 (k0_pay7 P3) (k0_pay8 P4) (k0_pay9 P0 P1 P2)) (k0_pay11 (k0_pay4 P0 P1 P2) P3 P4)
    (k0_pay12 P3) (k0_pay13 P4) (k0_pay14 (k0_pay5 P0 P1 P2)) (k0_pay15 (k0_pay5 P0 P1 P2))) (k0_pay18 P6) (k0_pay19 P7)

/-- The value stored for the new hidden state, as a function of the body's eight loads. -/
def payH : FVec Ideal S256x1024 .f32 :=
  k0_pay2 (k0_pay16 (k0_pay6 P0 P1 P2) P3 P4)
    (k0_pay17 P5 (k0_pay5 P0 P1 P2) (k0_pay10 (k0_pay7 P3) (k0_pay8 P4) (k0_pay9 P0 P1 P2)) (k0_pay11 (k0_pay4 P0 P1 P2) P3 P4)
    (k0_pay12 P3) (k0_pay13 P4) (k0_pay14 (k0_pay5 P0 P1 P2)) (k0_pay15 (k0_pay5 P0 P1 P2))) (k0_pay18 P6) (k0_pay19 P7)

theorem payC_at (y : S256x1024.Idx) :
    payC P0 P1 P5 P2 P3 P4 P6 P7 y
      = newC lnK (preRow (a := 256) P0 P1 P2 (y 0) 0) (preRow (a := 256) P0 P1 P2 (y 0) 1) (preRow (a := 256) P0 P1 P2 (y 0) 2)
          (rowOf (a := 256) P5 (y 0)) (tr P3 0) (tr P4 0) (tr P3 1) (tr P4 1) (tr P3 2) (tr P4 2) (r1 P6) (r1 P7) (y 1) :=
  (congrArg (payC P0 P1 P5 P2 P3 P4 P6 P7) (eq_ix2 y)).trans (payC_apply P0 P1 P5 P2 P3 P4 P6 P7 (y 0) (y 1))

theorem payH_at (y : S256x1024.Idx) :
    payH P0 P1 P5 P2 P3 P4 P6 P7 y
      = newH lnK (preRow (a := 256) P0 P1 P2 (y 0) 0) (preRow (a := 256) P0 P1 P2 (y 0) 1) (preRow (a := 256) P0 P1 P2 (y 0) 2)
          (preRow (a := 256) P0 P1 P2 (y 0) 3) (rowOf (a := 256) P5 (y 0))
          (tr P3 0) (tr P4 0) (tr P3 1) (tr P4 1) (tr P3 2) (tr P4 2) (tr P3 3) (tr P4 3) (r1 P6) (r1 P7) (y 1) :=
  (congrArg (payH P0 P1 P5 P2 P3 P4 P6 P7) (eq_ix2 y)).trans (payH_apply P0 P1 P5 P2 P3 P4 P6 P7 (y 0) (y 1))

end Cert.KernelIdeal.Pay

end
-- ==== Proof.KernelVal.lean ====
/-
  The kernel's two result arrays after the run, as functions of the argument arrays.

  The grid has 32 points; point `t` works on rows `256 t … 256 t + 255` of the inputs, the hidden state and the cell
  state, on the whole weight matrix (rounded to the narrower format on the host first, which at the exact reading is
  the identity) and on the whole gain / offset tables (the cell's, cast to one-row matrices on the host first). What it
  writes back to each result is therefore block `t` of one whole-array function: entry `(256 t + p, q)` is the cell's
  row function of row `256 t + p`, at `q`. The 32 row blocks cover the 8192 rows (row `r` is in block `r / 256`).
-/
import proofs.«178925_j24927990186081_2_alg».proof.Proof.KernelBlocks
import proofs.«178925_j24927990186081_2_alg».proof.Proof.KernelPay
import proofs.«178925_j24927990186081_2_alg».proof.Proof.CellArrays
import Idealize.ShloMosaic.Lib.StableHlo.Run

noncomputable section

namespace Cert.KernelIdeal.KVal

open Cert.KernelIdeal Cert.KernelIdeal.Gen Cert.KernelIdeal.Blocks Cert.KernelIdeal.Pay Idealize.ShloMosaic Idealize.ShloMosaic.TcCoe
  Idealize.SL.Sem Idealize.ShloMosaic.ValueIdx Idealize.ShloMosaic.StableHlo Cert.Cell Cert.RowOps Cert.Arrays
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The new cell state as a function of the arguments as launched. -/
def GCk (c : Dev nD) : S8192x1024.Idx → EReal :=
  GC lnK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The new hidden state as a function of the arguments as launched. -/
def GHk (c : Dev nD) : S8192x1024.Idx → EReal :=
  GH lnK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The printed index maps over the 32 points: the row-blocked windows sit at block row `t`, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 32 := lt_of_lt_of_eq t.isLt N_0

/-! ## The arrays the region finds -/

/-- The weights as the region finds them: the host's rounding to the narrower format is the identity here. -/
theorem V_w (c : Dev nD) : (V m c main_v0 : S4096x2048.Idx → EReal) = m ((c : Thread nD τ).loc main_arg3) := by
  dsimp only [Gen.V, Gen.hostOps0]; after_results; rfl

/-- The cell's gains as the region finds them: the vector cast to a one-row matrix. -/
theorem V_cg (c : Dev nD) : (V m c main_v1 : S1x1024.Idx → EReal)
    = shapeCast S1x1024 (m ((c : Thread nD τ).loc main_arg6)) shapeCasts_S1024_S1x1024 := by
  dsimp only [Gen.V, Gen.hostOps0]; after_results; rfl

theorem V_cb (c : Dev nD) : (V m c main_v2 : S1x1024.Idx → EReal)
    = shapeCast S1x1024 (m ((c : Thread nD τ).loc main_arg7)) shapeCasts_S1024_S1x1024 := by
  dsimp only [Gen.V, Gen.hostOps0]; after_results; rfl

/-! ## The blocks the body loads -/

section Blocks
variable (c : Dev nD) (t : Fin cfg0.N) (p : Fin 256) (R : Fin 8192) (hR : R.val = 256 * t.val + p.val)
include hR

theorem blk0 (cc : Fin 1024) : iblk m c 0 t (ix2 p cc) = m ((c : Thread nD τ).loc main_arg0) (ix2 R cc) := by
  show V m c main_arg0 (((cfg0.win 0).blk t).view.emb (ix2 p cc)) = _
  rw [V_main_arg0]
  refine congrArg _ (funext fun a => Fin.ext ?_)
  obtain ⟨e0, e1, -⟩ := idx_facts t
  match a with
  | ⟨0, _⟩ => show win0_0.index t (0 : Fin 2) * 256 + 1 * p.val = R.val; omega
  | ⟨1, _⟩ => show win0_0.index t (1 : Fin 2) * 1024 + 1 * cc.val = cc.val; omega

theorem blk1 (cc : Fin 1024) : iblk m c 1 t (ix2 p cc) = m ((c : Thread nD τ).loc main_arg1) (ix2 R cc) := by
  show V m c main_arg1 (((cfg0.win 1).blk t).view.emb (ix2 p cc)) = _
  rw [V_main_arg1]
  refine congrArg _ (funext fun a => Fin.ext ?_)
  obtain ⟨-, -, e0, e1, -⟩ := idx_facts t
  match a with
  | ⟨0, _⟩ => show win0_1.index t (0 : Fin 2) * 256 + 1 * p.val = R.val; omega
  | ⟨1, _⟩ => show win0_1.index t (1 : Fin 2) * 1024 + 1 * cc.val = cc.val; omega

theorem blk2 (cc : Fin 1024) : iblk m c 2 t (ix2 p cc) = m ((c : Thread nD τ).loc main_arg2) (ix2 R cc) := by
  show V m c main_arg2 (((cfg0.win 2).blk t).view.emb (ix2 p cc)) = _
  rw [V_main_arg2]
  refine congrArg _ (funext fun a => Fin.ext ?_)
  obtain ⟨-, -, -, -, e0, e1, -⟩ := idx_facts t
  match a with
  | ⟨0, _⟩ => show win0_2.index t (0 : Fin 2) * 256 + 1 * p.val = R.val; omega
  | ⟨1, _⟩ => show win0_2.index t (1 : Fin 2) * 1024 + 1 * cc.val = cc.val; omega

end Blocks

theorem blk3 (c : Dev nD) (t : Fin cfg0.N) (i : S4096x2048.Idx) : iblk m c 3 t i = m ((c : Thread nD τ).loc main_arg3) i := by
  show V m c main_v0 (((cfg0.win 3).blk t).view.emb i) = _
  rw [V_w]
  refine congrArg _ (funext fun a => Fin.ext ?_)
  obtain ⟨-, -, -, -, -, -, e0, e1, -⟩ := idx_facts t
  match a with
  | ⟨0, _⟩ => show win0_3.index t (0 : Fin 2) * 4096 + 1 * (i 0).val = (i 0).val; omega
  | ⟨1, _⟩ => show win0_3.index t (1 : Fin 2) * 2048 + 1 * (i 1).val = (i 1).val; omega

theorem blk4 (c : Dev nD) (t : Fin cfg0.N) (i : S4x1024.Idx) : iblk m c 4 t i = m ((c : Thread nD τ).loc main_arg4) i := by
  show V m c main_arg4 (((cfg0.win 4).blk t).view.emb i) = _
  rw [V_main_arg4]
  refine congrArg _ (funext fun a => Fin.ext ?_)
  obtain ⟨-, -, -, -, -, -, -, -, e0, e1, -⟩ := idx_facts t
  match a with
  | ⟨0, _⟩ => show win0_4.index t (0 : Fin 2) * 4 + 1 * (i 0).val = (i 0).val; omega
  | ⟨1, _⟩ => show win0_4.index t (1 : Fin 2) * 1024 + 1 * (i 1).val = (i 1).val; omega

theorem blk5 (c : Dev nD) (t : Fin cfg0.N) (i : S4x1024.Idx) : iblk m c 5 t i = m ((c : Thread nD τ).loc main_arg5) i := by
  show V m c main_arg5 (((cfg0.win 5).blk t).view.emb i) = _
  rw [V_main_arg5]
  refine congrArg _ (funext fun a => Fin.ext ?_)
  obtain ⟨-, -, -, -, -, -, -, -, -, -, e0, e1, -⟩ := idx_facts t
  match a with
  | ⟨0, _⟩ => show win0_5.index t (0 : Fin 2) * 4 + 1 * (i 0).val = (i 0).val; omega
  | ⟨1, _⟩ => show win0_5.index t (1 : Fin 2) * 1024 + 1 * (i 1).val = (i 1).val; omega

theorem blk6 (c : Dev nD) (t : Fin cfg0.N) (k : Fin 1024) :
    iblk m c 6 t (ix2 (0 : Fin 1) k) = m ((c : Thread nD τ).loc main_arg6) (ix1 k) := by
  show V m c main_v1 (((cfg0.win 6).blk t).view.emb (ix2 (0 : Fin 1) k)) = _
  rw [V_cg]
  refine (congrArg (shapeCast S1x1024 (m ((c : Thread nD τ).loc main_arg6)) shapeCasts_S1024_S1x1024)
    (funext fun a => Fin.ext ?_)).trans (shapeCast_a_1a_apply _ _ (0 : Fin 1) k)
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 1024 + 1 * k.val = k.val; omega

theorem blk7 (c : Dev nD) (t : Fin cfg0.N) (k : Fin 1024) :
    iblk m c 7 t (ix2 (0 : Fin 1) k) = m ((c : Thread nD τ).loc main_arg7) (ix1 k) := by
  show V m c main_v2 (((cfg0.win 7).blk t).view.emb (ix2 (0 : Fin 1) k)) = _
  rw [V_cb]
  refine (congrArg (shapeCast S1x1024 (m ((c : Thread nD τ).loc main_arg7)) shapeCasts_S1024_S1x1024)
    (funext fun a => Fin.ext ?_)).trans (shapeCast_a_1a_apply _ _ (0 : Fin 1) k)
  obtain ⟨-, -, -, -, -, -, -, -, -, -, -, -, -, -, e0, e1, -⟩ := idx_facts t
  match a with
  | ⟨0, _⟩ => show win0_7.index t (0 : Fin 2) * 1 + 1 * 0 = 0; omega
  | ⟨1, _⟩ => show win0_7.index t (1 : Fin 2) * 1024 + 1 * k.val = k.val; omega

/-! ## What a point writes back -/

section Point
variable (x0 x1 x2 : Vec Ideal S256x1024 .f32) (x3 : Vec Ideal S4096x2048 .bf16) (x4 x5 : Vec Ideal S4x1024 .f32)
  (x6 x7 : Vec Ideal S1x1024 .f32)

/-- The body's one store into the new cell state's buffer covers it: the buffer ends holding the stored value. -/
theorem out9_eq : out0_9 x0 x1 x2 x3 x4 x5 x6 x7 = payC x0 x1 x2 x3 x4 x5 x6 x7 := by
  unfold out0_9
  rw [View.canon_unit_zero hz]
  simp only [View.ld_unit_zero (S := S256x1024) hz, View.ld_unit_zero (S := S4096x2048) hz,
    View.ld_unit_zero (S := S4x1024) hz, View.ld_unit_zero (S := S1x1024) hz]
  rfl

theorem out8_eq : out0_8 x0 x1 x2 x3 x4 x5 x6 x7 = payH x0 x1 x2 x3 x4 x5 x6 x7 := by
  unfold out0_8
  rw [View.canon_unit_zero hz]
  simp only [View.ld_unit_zero (S := S256x1024) hz, View.ld_unit_zero (S := S4096x2048) hz,
    View.ld_unit_zero (S := S4x1024) hz, View.ld_unit_zero (S := S1x1024) hz]
  rfl

end Point

section PointValue
variable (c : Dev nD) (t : Fin cfg0.N) (y : S256x1024.Idx) (i : S8192x1024.Idx)
  (hi0 : (i 0).val = 256 * t.val + (y 0).val) (hi1 : (i 1).val = (y 1).val)
include hi0 hi1

/-- At point `t` the value stored at `(p, q)` of the cell block is the new cell state's entry `(256 t + p, q)`. -/
theorem pointC :
    payC (iblk m c 0 t) (iblk m c 1 t) (iblk m c 2 t) (iblk m c 3 t) (iblk m c 4 t) (iblk m c 5 t) (iblk m c 6 t) (iblk m c 7 t) y
      = GCk m c i := by
  refine (payC_at (iblk m c 0 t) (iblk m c 1 t) (iblk m c 2 t) (iblk m c 3 t) (iblk m c 4 t) (iblk m c 5 t) (iblk m c 6 t)
    (iblk m c 7 t) y).trans ?_
  have hq : (y 1 : Fin 1024) = i 1 := Fin.ext hi1.symm
  have e_pre : ∀ s : Fin 4, preRow (a := 256) (iblk m c 0 t) (iblk m c 1 t) (iblk m c 3 t) (y 0) s
      = preRow (a := 8192) (m ((c : Thread nD τ).loc main_arg0)) (m ((c : Thread nD τ).loc main_arg1))
          (m ((c : Thread nD τ).loc main_arg3)) (i 0) s :=
    fun s => preRow_congr _ _ _ _ _ _ (y 0) (i 0) (blk0 m c t (y 0) (i 0) hi0) (blk1 m c t (y 0) (i 0) hi0) (blk3 m c t) s
  have e_c : rowOf (a := 256) (iblk m c 2 t) (y 0) = rowOf (a := 8192) (m ((c : Thread nD τ).loc main_arg2)) (i 0) :=
    funext fun k => blk2 m c t (y 0) (i 0) hi0 k
  have e_g : ∀ s : Fin 4, Arrays.tr (iblk m c 4 t) s = Arrays.tr (m ((c : Thread nD τ).loc main_arg4)) s :=
    fun s => funext fun k => blk4 m c t (ix2 s k)
  have e_b : ∀ s : Fin 4, Arrays.tr (iblk m c 5 t) s = Arrays.tr (m ((c : Thread nD τ).loc main_arg5)) s :=
    fun s => funext fun k => blk5 m c t (ix2 s k)
  have e_cg : r1 (iblk m c 6 t) = vr (m ((c : Thread nD τ).loc main_arg6)) := funext fun k => blk6 m c t k
  have e_cb : r1 (iblk m c 7 t) = vr (m ((c : Thread nD τ).loc main_arg7)) := funext fun k => blk7 m c t k
  rw [e_pre 0, e_pre 1, e_pre 2, e_c, e_g 0, e_g 1, e_g 2, e_b 0, e_b 1, e_b 2, e_cg, e_cb, hq]
  rfl

/-- At point `t` the value stored at `(p, q)` of the hidden block is the new hidden state's entry `(256 t + p, q)`. -/
theorem pointH :
    payH (iblk m c 0 t) (iblk m c 1 t) (iblk m c 2 t) (iblk m c 3 t) (iblk m c 4 t) (iblk m c 5 t) (iblk m c 6 t) (iblk m c 7 t) y
      = GHk m c i := by
  refine (payH_at (iblk m c 0 t) (iblk m c 1 t) (iblk m c 2 t) (iblk m c 3 t) (iblk m c 4 t) (iblk m c 5 t) (iblk m c 6 t)
    (iblk m c 7 t) y).trans ?_
  have hq : (y 1 : Fin 1024) = i 1 := Fin.ext hi1.symm
  have e_pre : ∀ s : Fin 4, preRow (a := 256) (iblk m c 0 t) (iblk m c 1 t) (iblk m c 3 t) (y 0) s
      = preRow (a := 8192) (m ((c : Thread nD τ).loc main_arg0)) (m ((c : Thread nD τ).loc main_arg1))
          (m ((c : Thread nD τ).loc main_arg3)) (i 0) s :=
    fun s => preRow_congr _ _ _ _ _ _ (y 0) (i 0) (blk0 m c t (y 0) (i 0) hi0) (blk1 m c t (y 0) (i 0) hi0) (blk3 m c t) s
  have e_c : rowOf (a := 256) (iblk m c 2 t) (y 0) = rowOf (a := 8192) (m ((c : Thread nD τ).loc main_arg2)) (i 0) :=
    funext fun k => blk2 m c t (y 0) (i 0) hi0 k
  have e_g : ∀ s : Fin 4, Arrays.tr (iblk m c 4 t) s = Arrays.tr (m ((c : Thread nD τ).loc main_arg4)) s :=
    fun s => funext fun k => blk4 m c t (ix2 s k)
  have e_b : ∀ s : Fin 4, Arrays.tr (iblk m c 5 t) s = Arrays.tr (m ((c : Thread nD τ).loc main_arg5)) s :=
    fun s => funext fun k => blk5 m c t (ix2 s k)
  have e_cg : r1 (iblk m c 6 t) = vr (m ((c : Thread nD τ).loc main_arg6)) := funext fun k => blk6 m c t k
  have e_cb : r1 (iblk m c 7 t) = vr (m ((c : Thread nD τ).loc main_arg7)) := funext fun k => blk7 m c t k
  rw [e_pre 0, e_pre 1, e_pre 2, e_pre 3, e_c, e_g 0, e_g 1, e_g 2, e_g 3, e_b 0, e_b 1, e_b 2, e_b 3, e_cg, e_cb, hq]
  rfl

end PointValue

/-- What point `t` writes back to the new cell state is block `t` of the whole-array function. -/
theorem flushed9_eq (c : Dev nD) (t : Fin cfg0.N) :
    (dats m 0 c).flushed 9 t = ((cfg0.win 9).blk t).view.read (Elt Ideal) (GCk m c) := by
  rw [flushed9 m c t, out9_eq]
  funext j
  show payC (iblk m c 0 t) (iblk m c 1 t) (iblk m c 2 t) (iblk m c 3 t) (iblk m c 4 t) (iblk m c 5 t) (iblk m c 6 t) (iblk m c 7 t) j
    = GCk m c (((cfg0.win 9).blk t).view.emb j)
  obtain ⟨-, -, -, -, -, -, -, -, -, -, -, -, -, -, -, -, -, -, e0, e1⟩ := idx_facts t
  exact pointC m c t j _
    (by show win0_9.index t (0 : Fin 2) * 256 + 1 * (j 0).val = 256 * t.val + (j 0).val; omega)
    (by show win0_9.index t (1 : Fin 2) * 1024 + 1 * (j 1).val = (j 1).val; omega)

/-- What point `t` writes back to the new hidden state is block `t` of the whole-array function. -/
theorem flushed8_eq (c : Dev nD) (t : Fin cfg0.N) :
    (dats m 0 c).flushed 8 t = ((cfg0.win 8).blk t).view.read (Elt Ideal) (GHk m c) := by
  rw [flushed8 m c t, out8_eq]
  funext j
  show payH (iblk m c 0 t) (iblk m c 1 t) (iblk m c 2 t) (iblk m c 3 t) (iblk m c 4 t) (iblk m c 5 t) (iblk m c 6 t) (iblk m c 7 t) j
    = GHk m c (((cfg0.win 8).blk t).view.emb j)
  obtain ⟨-, -, -, -, -, -, -, -, -, -, -, -, -, -, -, -, e0, e1, -⟩ := idx_facts t
  exact pointH m c t j _
    (by show win0_8.index t (0 : Fin 2) * 256 + 1 * (j 0).val = 256 * t.val + (j 0).val; omega)
    (by show win0_8.index t (1 : Fin 2) * 1024 + 1 * (j 1).val = (j 1).val; omega)

/-! ## The row blocks cover the arrays -/

theorem mem_blk9 (t : Fin cfg0.N) (i : S8192x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v3_1).slice (win0_9.rect t)).set ↔ _
  rw [View.set_slice_whole, Rect.mem_set_unit]
  exact Iff.rfl

theorem mem_blk8 (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v3_0).slice (win0_8.rect t)).set ↔ _
  rw [View.set_slice_whole, Rect.mem_set_unit]
  exact Iff.rfl

/-- Row `r` lies in block `r / 256`. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 256 < cfg0.N := lt_of_lt_of_eq (by omega : (i 0).val / 256 < 32) N_0.symm
  obtain ⟨-, -, -, -, -, -, -, -, -, -, -, -, -, -, -, -, -, -, e0, e1⟩ := idx_facts ⟨(i 0).val / 256, hN⟩
  have e0' : win0_9.index ⟨(i 0).val / 256, hN⟩ (0 : Fin 2) = (i 0).val / 256 := e0
  refine ⟨⟨(i 0).val / 256, hN⟩, flush0_9 _, ?_⟩
  rw [mem_blk9]
  intro a
  match a with
  | ⟨0, _⟩ =>
    show win0_9.index ⟨(i 0).val / 256, hN⟩ (0 : Fin 2) * 256 ≤ (i 0).val
      ∧ (i 0).val < win0_9.index ⟨(i 0).val / 256, hN⟩ (0 : Fin 2) * 256 + 256
    omega
  | ⟨1, _⟩ =>
    show win0_9.index ⟨(i 0).val / 256, hN⟩ (1 : Fin 2) * 1024 ≤ (i 1).val
      ∧ (i 1).val < win0_9.index ⟨(i 0).val / 256, hN⟩ (1 : Fin 2) * 1024 + 1024
    omega

theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : (i 0).val / 256 < cfg0.N := lt_of_lt_of_eq (by omega : (i 0).val / 256 < 32) N_0.symm
  obtain ⟨-, -, -, -, -, -, -, -, -, -, -, -, -, -, -, -, e0, e1, -⟩ := idx_facts ⟨(i 0).val / 256, hN⟩
  have e0' : win0_8.index ⟨(i 0).val / 256, hN⟩ (0 : Fin 2) = (i 0).val / 256 := e0
  refine ⟨⟨(i 0).val / 256, hN⟩, flush0_8 _, ?_⟩
  rw [mem_blk8]
  intro a
  match a with
  | ⟨0, _⟩ =>
    show win0_8.index ⟨(i 0).val / 256, hN⟩ (0 : Fin 2) * 256 ≤ (i 0).val
      ∧ (i 0).val < win0_8.index ⟨(i 0).val / 256, hN⟩ (0 : Fin 2) * 256 + 256
    omega
  | ⟨1, _⟩ =>
    show win0_8.index ⟨(i 0).val / 256, hN⟩ (1 : Fin 2) * 1024 ≤ (i 1).val
      ∧ (i 1).val < win0_8.index ⟨(i 0).val / 256, hN⟩ (1 : Fin 2) * 1024 + 1024
    omega

/-! ## The arrays after the run -/

theorem final9 (c : Dev nD) : (dats m 0 c).arrAt 9 cfg0.N = GCk m c :=
  (dats m 0 c).arrAt_eq_of_cover 9 (GCk m c) (fun t _ => flushed9_eq m c t) cover9

theorem final8 (c : Dev nD) : (dats m 0 c).arrAt 8 cfg0.N = GHk m c :=
  (dats m 0 c).arrAt_eq_of_cover 8 (GHk m c) (fun t _ => flushed8_eq m c t) cover8

/-- The kernel's run: it ends with the new hidden state and the new cell state at their whole-array functions of the
    arguments, the arguments unchanged. -/
theorem run : θ_run defs (onTc (τ := τ) (main (F := Ideal))) ⟨m, fun _ => 0, ρ⟩ fun r => ∀ c : Dev nD,
      r.2.mem ((c : Thread nD τ).loc main_v3_0) = GHk m c
      ∧ r.2.mem ((c : Thread nD τ).loc main_v3_1) = GCk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (run_blocks m ρ)

end Cert.KernelIdeal.KVal

end
-- ==== Proof.RefVal.lean ====
/-
  The reference's two results, entry by entry.

  The reference concatenates the inputs and the hidden state along the columns and multiplies by the weights, contracting
  over all 2048 columns: a sum over 2048 terms, which splits into the first 1024 (the inputs' columns) and the last 1024
  (the hidden state's). Its layer normalisation takes the variance as the mean of the squared deviations; its logistic
  function is spelt `1 / (1 + exp (-y))`. Entry `(r, q)` of each result is the cell's row function of row `r`, at `q`.
-/
import proofs.«178925_j24927990186081_2_alg».proof.Proof.Gen.ReferenceIdeal.Run
import proofs.«178925_j24927990186081_2_alg».proof.Proof.CellArrays
import proofs.«178925_j24927990186081_2_alg».proof.Proof.LibDotLastAxis

set_option maxRecDepth 8192

noncomputable section

namespace Cert.ReferenceIdeal.RefVal

open Cert.ReferenceIdeal Cert.ReferenceIdeal.Gen Cert.ReferenceIdeal.Value Idealize.ShloMosaic Idealize.ShloMosaic.TcCoe
  Idealize.ShloMosaic.ValueIdx Idealize.ShloMosaic.StableHlo Cert.Cell Cert.RowOps Cert.Arrays Cert.LibDotLastAxis

variable (V0 : Valuation τ sig (Elt Ideal))

/-- The product of the concatenation with the weights at `(r, j)`: the sum over 2048 columns, split in two. -/
theorem refPre_apply (r : Fin 8192) (j : Fin 4096) :
    res_main_v1 V0 (ix2 r j) = preK (a := 8192) (V0 (Proc.devRef .tc main_arg0)) (V0 (Proc.devRef .tc main_arg1))
      (V0 (Proc.devRef .tc main_arg3)) r j := by
  unfold res_main_v1
  refine (dotGeneralT_apply dot_S8192x2048_S4096x2048_S8192x4096_1_1_0_0_n_n_wf none _ _ r j).trans ?_
  refine (Fin.sum_univ_add (a := 1024) (b := 1024) _).trans ?_
  refine congrArg₂ (· + ·) (Finset.sum_congr rfl fun c _ => ?_) (Finset.sum_congr rfl fun c _ => ?_)
  · refine congrArg (· * _) ?_
    exact concatenate_pair_apply_left (t := S8192x2048) (s₁ := S8192x1024) (s₂ := S8192x1024) (1 : Fin 2) _ _
      concatenates_S8192x1024_S8192x1024_S8192x2048_d1 (ix2 r (Fin.castAdd 1024 c)) rfl (ix2 r c)
      (fun b => by match b with | ⟨0, _⟩ => rfl | ⟨1, _⟩ => rfl)
  · refine congrArg (· * _) ?_
    exact concatenate_pair_apply_right (t := S8192x2048) (s₁ := S8192x1024) (s₂ := S8192x1024) (1 : Fin 2) _ _
      concatenates_S8192x1024_S8192x1024_S8192x2048_d1 (ix2 r (Fin.natAdd 1024 c)) rfl rfl (ix2 r c)
      (fun b hb => by match b, hb with | ⟨0, _⟩, _ => rfl | ⟨1, _⟩, hb => exact absurd rfl hb)
      (Nat.add_comm c.val 1024)

/-- Gate `s`'s column slice of the product, row `r`. -/
theorem slice_row (s : Fin 4) (hsl : S8192x4096.Slices ![0, 1024 * s.val] S8192x1024) (r : Fin 8192) :
    rowOf (a := 8192) (extractStridedSlice S8192x1024 ![0, 1024 * s.val] (res_main_v1 V0) hsl) r
      = preRow (a := 8192) (V0 (Proc.devRef .tc main_arg0)) (V0 (Proc.devRef .tc main_arg1)) (V0 (Proc.devRef .tc main_arg3)) r s :=
  funext fun k => (slice2_axis1_apply (1024 * s.val) (res_main_v1 V0) hsl r k (gateIdx s k) rfl).trans
    (refPre_apply V0 r (gateIdx s k))

/-- Row `s` of a gain / offset table, as the vector the reference makes of it. -/
theorem table_row (T : S4x1024.Idx → EReal) (s : ℕ) (hs : s < 4) (hsl : S4x1024.Slices ![s, 0] S1x1024) :
    vr (shapeCast S1024 (extractStridedSlice S1x1024 ![s, 0] T hsl) shapeCasts_S1x1024_S1024) = Arrays.tr T ⟨s, hs⟩ :=
  funext fun k => tableRow_apply s hs T hsl shapeCasts_S1x1024_S1024 k

/-- The new cell state is the host's cell operations of the gate slices. -/
theorem refC_eq :
    val4 V0 (Proc.devRef .tc main_v163)
      = hNewC (a := 8192) reducesTo_S8192x1024_S8192_d1 h_S_ bcast_S8192_S8192x1_0 bcast_S_S8192x1 bcast_S8192x1_S8192x1024_0_1
          bcast_S1024_S1x1024_1 bcast_S1x1024_S8192x1024_0_1 bcast_S_S8192x1024
          (res_main_v2 V0) (res_main_v3 V0) (res_main_v4 V0) (V0 (Proc.devRef .tc main_arg2))
          (shapeCast S1024 (extractStridedSlice S1x1024 ![0, 0] (V0 (Proc.devRef .tc main_arg4)) slices_S4x1024_S1x1024_0_0) shapeCasts_S1x1024_S1024)
          (shapeCast S1024 (extractStridedSlice S1x1024 ![0, 0] (V0 (Proc.devRef .tc main_arg5)) slices_S4x1024_S1x1024_0_0) shapeCasts_S1x1024_S1024)
          (shapeCast S1024 (extractStridedSlice S1x1024 ![1, 0] (V0 (Proc.devRef .tc main_arg4)) slices_S4x1024_S1x1024_1_0) shapeCasts_S1x1024_S1024)
          (shapeCast S1024 (extractStridedSlice S1x1024 ![1, 0] (V0 (Proc.devRef .tc main_arg5)) slices_S4x1024_S1x1024_1_0) shapeCasts_S1x1024_S1024)
          (shapeCast S1024 (extractStridedSlice S1x1024 ![2, 0] (V0 (Proc.devRef .tc main_arg4)) slices_S4x1024_S1x1024_2_0) shapeCasts_S1x1024_S1024)
          (shapeCast S1024 (extractStridedSlice S1x1024 ![2, 0] (V0 (Proc.devRef .tc main_arg5)) slices_S4x1024_S1x1024_2_0) shapeCasts_S1x1024_S1024)
          (V0 (Proc.devRef .tc main_arg6)) (V0 (Proc.devRef .tc main_arg7)) :=
  (val4_main_v163 V0).trans rfl

/-- The new hidden state is the host's cell operations of the gate slices. -/
theorem refH_eq :
    val4 V0 (Proc.devRef .tc main_v165)
      = hNewH (a := 8192) reducesTo_S8192x1024_S8192_d1 h_S_ bcast_S8192_S8192x1_0 bcast_S_S8192x1 bcast_S8192x1_S8192x1024_0_1
          bcast_S1024_S1x1024_1 bcast_S1x1024_S8192x1024_0_1 bcast_S_S8192x1024
          (res_main_v2 V0) (res_main_v3 V0) (res_main_v4 V0) (res_main_v5 V0) (V0 (Proc.devRef .tc main_arg2))
          (shapeCast S1024 (extractStridedSlice S1x1024 ![0, 0] (V0 (Proc.devRef .tc main_arg4)) slices_S4x1024_S1x1024_0_0) shapeCasts_S1x1024_S1024)
          (shapeCast S1024 (extractStridedSlice S1x1024 ![0, 0] (V0 (Proc.devRef .tc main_arg5)) slices_S4x1024_S1x1024_0_0) shapeCasts_S1x1024_S1024)
          (shapeCast S1024 (extractStridedSlice S1x1024 ![1, 0] (V0 (Proc.devRef .tc main_arg4)) slices_S4x1024_S1x1024_1_0) shapeCasts_S1x1024_S1024)
          (shapeCast S1024 (extractStridedSlice S1x1024 ![1, 0] (V0 (Proc.devRef .tc main_arg5)) slices_S4x1024_S1x1024_1_0) shapeCasts_S1x1024_S1024)
          (shapeCast S1024 (extractStridedSlice S1x1024 ![2, 0] (V0 (Proc.devRef .tc main_arg4)) slices_S4x1024_S1x1024_2_0) shapeCasts_S1x1024_S1024)
          (shapeCast S1024 (extractStridedSlice S1x1024 ![2, 0] (V0 (Proc.devRef .tc main_arg5)) slices_S4x1024_S1x1024_2_0) shapeCasts_S1x1024_S1024)
          (shapeCast S1024 (extractStridedSlice S1x1024 ![3, 0] (V0 (Proc.devRef .tc main_arg4)) slices_S4x1024_S1x1024_3_0) shapeCasts_S1x1024_S1024)
          (shapeCast S1024 (extractStridedSlice S1x1024 ![3, 0] (V0 (Proc.devRef .tc main_arg5)) slices_S4x1024_S1x1024_3_0) shapeCasts_S1x1024_S1024)
          (V0 (Proc.devRef .tc main_arg6)) (V0 (Proc.devRef .tc main_arg7)) :=
  (val4_main_v165 V0).trans rfl

/-- The reference's new cell state, as the array function with the variance of squared deviations. -/
theorem refC_val :
    val4 V0 (Proc.devRef .tc main_v163)
      = GC lnR (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) := by
  rw [refC_eq]
  funext i
  obtain ⟨r, q, rfl⟩ : ∃ (r : Fin 8192) (q : Fin 1024), i = ix2 r q := ⟨i 0, i 1, eq_ix2 i⟩
  rw [hNewC_apply]
  have e1 : rowOf (a := 8192) (res_main_v2 V0) r = _ := slice_row V0 0 slices_S8192x4096_S8192x1024_0_0 r
  have e2 : rowOf (a := 8192) (res_main_v3 V0) r = _ := slice_row V0 1 slices_S8192x4096_S8192x1024_0_1024 r
  have e3 : rowOf (a := 8192) (res_main_v4 V0) r = _ := slice_row V0 2 slices_S8192x4096_S8192x1024_0_2048 r
  rw [e1, e2, e3,
    table_row (V0 (Proc.devRef .tc main_arg4)) 0 (by decide) slices_S4x1024_S1x1024_0_0,
    table_row (V0 (Proc.devRef .tc main_arg5)) 0 (by decide) slices_S4x1024_S1x1024_0_0,
    table_row (V0 (Proc.devRef .tc main_arg4)) 1 (by decide) slices_S4x1024_S1x1024_1_0,
    table_row (V0 (Proc.devRef .tc main_arg5)) 1 (by decide) slices_S4x1024_S1x1024_1_0,
    table_row (V0 (Proc.devRef .tc main_arg4)) 2 (by decide) slices_S4x1024_S1x1024_2_0,
    table_row (V0 (Proc.devRef .tc main_arg5)) 2 (by decide) slices_S4x1024_S1x1024_2_0]
  rfl

/-- The reference's new hidden state, likewise. -/
theorem refH_val :
    val4 V0 (Proc.devRef .tc main_v165)
      = GH lnR (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) := by
  rw [refH_eq]
  funext i
  obtain ⟨r, q, rfl⟩ : ∃ (r : Fin 8192) (q : Fin 1024), i = ix2 r q := ⟨i 0, i 1, eq_ix2 i⟩
  rw [hNewH_apply]
  have e4 : rowOf (a := 8192) (res_main_v2 V0) r = _ := slice_row V0 0 slices_S8192x4096_S8192x1024_0_0 r
  have e5 : rowOf (a := 8192) (res_main_v3 V0) r = _ := slice_row V0 1 slices_S8192x4096_S8192x1024_0_1024 r
  have e6 : rowOf (a := 8192) (res_main_v4 V0) r = _ := slice_row V0 2 slices_S8192x4096_S8192x1024_0_2048 r
  have e7 : rowOf (a := 8192) (res_main_v5 V0) r = _ := slice_row V0 3 slices_S8192x4096_S8192x1024_0_3072 r
  rw [e4, e5, e6, e7,
    table_row (V0 (Proc.devRef .tc main_arg4)) 0 (by decide) slices_S4x1024_S1x1024_0_0,
    table_row (V0 (Proc.devRef .tc main_arg5)) 0 (by decide) slices_S4x1024_S1x1024_0_0,
    table_row (V0 (Proc.devRef .tc main_arg4)) 1 (by decide) slices_S4x1024_S1x1024_1_0,
    table_row (V0 (Proc.devRef .tc main_arg5)) 1 (by decide) slices_S4x1024_S1x1024_1_0,
    table_row (V0 (Proc.devRef .tc main_arg4)) 2 (by decide) slices_S4x1024_S1x1024_2_0,
    table_row (V0 (Proc.devRef .tc main_arg5)) 2 (by decide) slices_S4x1024_S1x1024_2_0,
    table_row (V0 (Proc.devRef .tc main_arg4)) 3 (by decide) slices_S4x1024_S1x1024_3_0,
    table_row (V0 (Proc.devRef .tc main_arg5)) 3 (by decide) slices_S4x1024_S1x1024_3_0]
  rfl

end Cert.ReferenceIdeal.RefVal

end
-- ==== Proof.Finite.lean ====
/-
  What the precondition gives: the inputs, the hidden state, the cell state and the weights hold real numbers.

  The precondition is a conjunction, over the eight arguments, of "every entry has absolute value below +∞". On the
  extended reals `max x (-x) < ⊤` fails exactly at the two infinities, so each conjunct says its array is real.
-/
import proofs.«178925_j24927990186081_2_alg».proof.Pre_finite_inputs
import proofs.«178925_j24927990186081_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws
import proofs.«178925_j24927990186081_2_alg».proof.Proof.CellArrays
import proofs.«178925_j24927990186081_2_alg».proof.Proof.LibBcast

noncomputable section

namespace Cert.Finite

open Cert.Pre_finite_inputs Idealize.ShloMosaic Idealize.ShloMosaic.ValueIdx Cert.Arrays

instance : Subsingleton (⟨0, ![]⟩ : Shape).Idx := ⟨fun a b => funext fun d => d.elim0⟩

/-- The word `0x7F800000` denotes +∞. -/
theorem top_word : Ideal.ofBits .f32 0x7F800000#32 = (⊤ : EReal) := by simp [Ideal.ofBits, Ideal.ieee]

/-- An extended real whose absolute value is below +∞ is a real number. -/
theorem real_of_cmp (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- One conjunct of the precondition: the whole-array "and" of `|A| < +∞` being 1 makes `A` real. -/
theorem allReal_of_all {s : Shape} {axes : List (Fin s.rank)} (A : FVec Ideal s .f32)
    (hb : (⟨0, ![]⟩ : Shape).BroadcastsInDim s ![]) (hred : s.ReducesTo axes ⟨0, ![]⟩) (hS : 0 < (⟨0, ![]⟩ : Shape).numel)
    (h : Host.reduce IntOp.andi (cmpf .olt (Host.absf A) (broadcastInDim s ![] hb (constant (F := Ideal) ⟨0, ![]⟩ .f32 0x7F800000#32)))
      (constantI ⟨0, ![]⟩ 1 1#1) hred hS ix0 = 1#1) : AllReal A := fun i => by
  have hi := Host.reduce_andi_all _ _ hred hS ix0 h i
  have ht : (broadcastInDim s ![] hb (constant (F := Ideal) ⟨0, ![]⟩ .f32 0x7F800000#32)) i = (⊤ : EReal) := by
    rw [Cert.LibBcast.bid_scalar_apply]; exact top_word
  have hi' : Ideal.cmp .olt (max (A i) (-(A i)))
      ((broadcastInDim s ![] hb (constant (F := Ideal) ⟨0, ![]⟩ .f32 0x7F800000#32)) i) = 1#1 := hi
  rw [ht] at hi'
  exact real_of_cmp (A i) hi'

/-- Under the precondition the four float arrays the algebra needs real are real. -/
theorem reals_of_pre (a0 a1 a2 : FVec Ideal S8192x1024 .f32) (a3 : FVec Ideal S4096x2048 .f32) (a4 a5 : FVec Ideal S4x1024 .f32)
    (a6 a7 : FVec Ideal S1024 .f32) (h : fn (F := Ideal) a0 a1 a2 a3 a4 a5 a6 a7 = fun _ => 1#1) :
    AllReal a0 ∧ AllReal a1 ∧ AllReal a2 ∧ AllReal a3 := by
  have h0 := congrFun h ix0
  dsimp only [fn, fn_part1, fn_part2, Idealize.ShloMosaic.andi] at h0
  simp only [IntOp.andi_eq_one] at h0
  obtain ⟨⟨⟨⟨⟨⟨⟨h0', h1'⟩, h2'⟩, h3'⟩, -⟩, -⟩, -⟩, -⟩ := h0
  exact ⟨allReal_of_all a0 _ _ _ h0', allReal_of_all a1 _ _ _ h1', allReal_of_all a2 _ _ _ h2', allReal_of_all a3 _ _ _ h3'⟩

end Cert.Finite

end
-- ==== Proof.lean ====
/-
  A layer-normalised LSTM cell on 8192 rows of width 1024, as a tiled kernel and as a plain array program.

  Both programs compute, for every row, four pre-activation rows (the row of the inputs and the row of the hidden state
  against the 4096 rows of a 4096 × 2048 weight matrix), normalise each (mean, variance, inverse square root, gain and
  offset), and combine them: `c' = σ(i) · tanh(j) + σ(f) · c`, the new cell row `LN c'`, the new hidden row
  `σ(o) · tanh(LN c')`. They differ in three ways, none of which changes the value on real inputs:
  * the kernel works on 32 blocks of 256 rows, the reference on all rows at once: each result entry depends on its own
    row only, and the blocks cover the rows;
  * the kernel multiplies the inputs and the hidden state against the two halves of the weight columns and adds, the
    reference concatenates and multiplies once: a sum over 2048 columns split into two sums over 1024;
  * the kernel takes a row's variance as the mean of squares minus the squared mean, the reference as the mean of squared
    deviations: equal on a row of real numbers (expand the square; the row has exactly the 1024 entries the means divide
    by). This is where the precondition is used: finite inputs and weights make the pre-activation rows real, and the
    logistic function and tanh are real-valued everywhere, so the cell row fed to the last normalisation is real too.
  The kernel's change of float format for the matrix unit is the identity on exact values, and the reference's
  `1 / (1 + exp (-y))` is the kernel's logistic function.
-/
import proofs.«178925_j24927990186081_2_alg».proof.Defs
import proofs.«178925_j24927990186081_2_alg».proof.Proof.Gen.Kernel
import proofs.«178925_j24927990186081_2_alg».proof.Proof.Gen.Kernel.Skeleton
import proofs.«178925_j24927990186081_2_alg».proof.Proof.Gen.Kernel.Launch
import proofs.«178925_j24927990186081_2_alg».proof.Proof.Gen.Kernel.Points
import proofs.«178925_j24927990186081_2_alg».proof.Proof.Gen.Kernel.Frame
import proofs.«178925_j24927990186081_2_alg».proof.Proof.Gen.KernelIdeal
import proofs.«178925_j24927990186081_2_alg».proof.Proof.Gen.KernelIdeal.Skeleton
import proofs.«178925_j24927990186081_2_alg».proof.Proof.Gen.KernelIdeal.Launch
import proofs.«178925_j24927990186081_2_alg».proof.Proof.Gen.KernelIdeal.Points
import proofs.«178925_j24927990186081_2_alg».proof.Proof.Gen.KernelIdeal.Frame
import proofs.«178925_j24927990186081_2_alg».proof.Proof.Gen.ReferenceIdeal
import proofs.«178925_j24927990186081_2_alg».proof.Proof.Gen.Pre_finite_inputs
import proofs.«178925_j24927990186081_2_alg».proof.Proof.Gen.ReferenceIdeal.Run
import proofs.«178925_j24927990186081_2_alg».proof.Proof.KernelVal
import proofs.«178925_j24927990186081_2_alg».proof.Proof.RefVal
import proofs.«178925_j24927990186081_2_alg».proof.Proof.Finite
import Idealize.ShloMosaic.Adequacy
import Idealize.ShloMosaic.Init

set_option maxRecDepth 8192

noncomputable section

namespace Cert.Proof

open Idealize.ShloMosaic Idealize.ShloMosaic.TcCoe Idealize.SL.Sem Idealize.ShloMosaic.StableHlo Cert.Cell Cert.Arrays

/-- The word-level kernel runs and leaves its arguments as they were. -/
theorem frame_k : Cert.frame_Kernel := fun m ρ _ => Cert.Kernel.Gen.frame m ρ

/-- So does the kernel read on exact values. -/
theorem frame_ki : Cert.frame_KernelIdeal := fun m ρ _ => Cert.KernelIdeal.Gen.frame m ρ

/-- The reference is a straight line of array operations: it runs, and its arguments are never written. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the same new hidden state and the same new cell
    state: the kernel's arrays are the cell's functions with one variance formula, the reference's with the other, and
    under the precondition the rows they are applied to are real. -/
theorem algebraic : Cert.algebraic_KernelIdeal_ReferenceIdeal := by
  intro m ρ m' ρ' hpre hagree
  refine ⟨fun c => Cert.KernelIdeal.KVal.GHk m c, fun c => Cert.KernelIdeal.KVal.GCk m c, Cert.KernelIdeal.KVal.run m ρ, ?_⟩
  refine (θ_run Cert.ReferenceIdeal.defs _ _).mono (fun r h c => ?_) (Cert.ReferenceIdeal.Value.run (F := Ideal) m' ρ')
  obtain ⟨a0, a1, a2, a3, a4, a5, a6, a7⟩ := hagree c
  obtain ⟨hX, hH, hC, hW⟩ := Cert.Finite.reals_of_pre _ _ _ _ _ _ _ _ (hpre c)
  refine ⟨(h c).1.trans ?_, (h c).2.1.trans ?_, (h c).2.2⟩
  · refine ((Cert.ReferenceIdeal.Value.val4_main_v165 (launchContents m' c)).symm.trans
      (Cert.ReferenceIdeal.RefVal.refH_val (launchContents m' c))).trans ?_
    show GH lnR (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [a0, a1, a2, a3, a4, a5, a6, a7]
    exact (GH_K_eq_R hX hH hC hW _ _ _ _).symm
  · refine ((Cert.ReferenceIdeal.Value.val4_main_v163 (launchContents m' c)).symm.trans
      (Cert.ReferenceIdeal.RefVal.refC_val (launchContents m' c))).trans ?_
    show GC lnR (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [a0, a1, a2, a3, a4, a5, a6, a7]
    exact (GC_K_eq_R hX hH hC hW _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
